-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg8 : FVec F S433x300 .f32) (main_arg9 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg8
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : IVec S100000 32) (main_arg6 : FVec F S147x300 .f32) (main_arg7 : FVec F S300x300 .f32) (main_arg8 : FVec F S433x300 .f32) (main_arg9 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg6
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S2000x147 : Shape := ⟨2, ![2000, 147]⟩
abbrev S2000x300 : Shape := ⟨2, ![2000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S1x300 : Shape := ⟨2, ![1, 300]⟩
abbrev S2000x133 : Shape := ⟨2, ![2000, 133]⟩
abbrev S2000x433 : Shape := ⟨2, ![2000, 433]⟩
abbrev S4000x300 : Shape := ⟨2, ![4000, 300]⟩
abbrev S100000x1 : Shape := ⟨2, ![100000, 1]⟩
abbrev S4000x1 : Shape := ⟨2, ![4000, 1]⟩

abbrev nBuf : Space → Nat
  | .hbm => 110
  | .vmem => 29
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S200000x300, .f32⟩
  | .hbm, ⟨12, _⟩ => ⟨S_, .i32⟩
  | .hbm, ⟨13, _⟩ => ⟨S100000x6, .i32⟩
  | .hbm, ⟨14, _⟩ => ⟨S100000x6, .i1⟩
  | .hbm, ⟨15, _⟩ => ⟨S_, .i32⟩
  | .hbm, ⟨16, _⟩ => ⟨S100000x6, .i32⟩
  | .hbm, ⟨17, _⟩ => ⟨S100000x6, .i32⟩
  | .hbm, ⟨18, _⟩ => ⟨S100000x6, .i32⟩
  | .hbm, ⟨19, _⟩ => ⟨S100000x6x1, .i32⟩
  | .hbm, ⟨20, _⟩ => ⟨S100000x6x300, .f32⟩
  | .hbm, ⟨21, _⟩ => ⟨S_, .f32⟩
  | .hbm, ⟨22, _⟩ => ⟨S100000x300, .f32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S200000x300, .f32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x300, .f32⟩
  | .hbm, ⟨41, _⟩ => ⟨S200000x300, .f32⟩
  | .hbm, ⟨42, _⟩ => ⟨S200000x300, .f32⟩
  | .hbm, ⟨43, _⟩ => ⟨S_, .i32⟩
  | .hbm, ⟨44, _⟩ => ⟨S100000x6, .i32⟩
  | .hbm, ⟨45, _⟩ => ⟨S100000x6, .i1⟩
  | .hbm, ⟨46, _⟩ => ⟨S_, .i32⟩
  | .hbm, ⟨47, _⟩ => ⟨S100000x6, .i32⟩
  | .hbm, ⟨48, _⟩ => ⟨S100000x6, .i32⟩
  | .hbm, ⟨49, _⟩ => ⟨S100000x6, .i32⟩
  | .hbm, ⟨50, _⟩ => ⟨S100000x6x1, .i32⟩
  | .hbm, ⟨51, _⟩ => ⟨S100000x6x300, .f32⟩
  | .hbm, ⟨52, _⟩ => ⟨S_, .f32⟩
  | .hbm, ⟨53, _⟩ => ⟨S100000x300, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x300, .f32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000x300, .f32⟩
  | .hbm, ⟨72, _⟩ => ⟨S200000x300, .f32⟩
  | .hbm, ⟨73, _⟩ => ⟨S200000x300, .f32⟩
  | .hbm, ⟨74, _⟩ => ⟨S_, .i32⟩
  | .hbm, ⟨75, _⟩ => ⟨S100000x6, .i32⟩
  | .hbm, ⟨76, _⟩ => ⟨S100000x6, .i1⟩
  | .hbm, ⟨77, _⟩ => ⟨S_, .i32⟩
  | .hbm, ⟨78, _⟩ => ⟨S100000x6, .i32⟩
  | .hbm, ⟨79, _⟩ => ⟨S100000x6, .i32⟩
  | .hbm, ⟨80, _⟩ => ⟨S100000x6, .i32⟩
  | .hbm, ⟨81, _⟩ => ⟨S100000x6x1, .i32⟩
  | .hbm, ⟨82, _⟩ => ⟨S100000x6x300, .f32⟩
  | .hbm, ⟨83, _⟩ => ⟨S_, .f32⟩
  | .hbm, ⟨84, _⟩ => ⟨S100000x300, .f32⟩
  | .hbm, ⟨85, _⟩ => ⟨S1x300, .f32⟩
  | .hbm, ⟨86, _⟩ => ⟨S100000x300, .f32⟩
  | .hbm, ⟨87, _⟩ => ⟨S_, .f32⟩
  | .hbm, ⟨88, _⟩ => ⟨S4000x300, .f32⟩
  | .hbm, ⟨89, _⟩ => ⟨S100000x1, .i32⟩
  | .hbm, ⟨90, _⟩ => ⟨S4000x300, .f32⟩
  | .hbm, ⟨91, _⟩ => ⟨S_, .f32⟩
  | .hbm, ⟨92, _⟩ => ⟨S100000x1, .f32⟩
  | .hbm, ⟨93, _⟩ => ⟨S_, .f32⟩
  | .hbm, ⟨94, _⟩ => ⟨S4000x1, .f32⟩
  | .hbm, ⟨95, _⟩ => ⟨S100000x1, .i32⟩
  | .hbm, ⟨96, _⟩ => ⟨S4000x1, .f32⟩
  | .hbm, ⟨97, _⟩ => ⟨S_, .f32⟩
  | .hbm, ⟨98, _⟩ => ⟨S4000x1, .f32⟩
  | .hbm, ⟨99, _⟩ => ⟨S4000x1, .i1⟩
  | .hbm, ⟨100, _⟩ => ⟨S_, .f32⟩
  | .hbm, ⟨101, _⟩ => ⟨S4000x1, .f32⟩
  | .hbm, ⟨102, _⟩ => ⟨S4000x1, .f32⟩
  | .hbm, ⟨103, _⟩ => ⟨S4000x300, .f32⟩
  | .hbm, ⟨104, _⟩ => ⟨S4000x300, .f32⟩
  | .hbm, ⟨105, _⟩ => ⟨S_, .f32⟩
  | .hbm, ⟨106, _⟩ => ⟨S_, .f32⟩
  | .hbm, ⟨107, _⟩ => ⟨S4000x300, .i1⟩
  | .hbm, ⟨108, _⟩ => ⟨S4000x300, .f32⟩
  | .hbm, ⟨109, _⟩ => ⟨S4000x300, .f32⟩
  | .local _ .vmem, ⟨0, _⟩ => ⟨S2000x147, .f32⟩
  | .local _ .vmem, ⟨1, _⟩ => ⟨S2000x147, .f32⟩
  | .local _ .vmem, ⟨2, _⟩ => ⟨S147x300, .f32⟩
  | .local _ .vmem, ⟨3, _⟩ => ⟨S2000x300, .f32⟩
  | .local _ .vmem, ⟨4, _⟩ => ⟨S2000x300, .f32⟩
  | .local _ .vmem, ⟨5, _⟩ => ⟨S2000x300, .f32⟩
  | .local _ .vmem, ⟨6, _⟩ => ⟨S2000x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S300x300, .f32⟩
  | .local _ .vmem, ⟨12, _⟩ => ⟨S2000x300, .f32⟩
  | .local _ .vmem, ⟨13, _⟩ => ⟨S2000x300, .f32⟩
  | .local _ .vmem, ⟨14, _⟩ => ⟨S2000x300, .f32⟩
  | .local _ .vmem, ⟨15, _⟩ => ⟨S2000x300, .f32⟩
  | .local _ .vmem, ⟨16, _⟩ => ⟨S2000x300, .f32⟩
  | .local _ .vmem, ⟨17, _⟩ => ⟨S2000x300, .f32⟩
  | .local _ .vmem, ⟨18, _⟩ => ⟨S300x300, .f32⟩
  | .local _ .vmem, ⟨19, _⟩ => ⟨S2000x300, .f32⟩
  | .local _ .vmem, ⟨20, _⟩ => ⟨S2000x300, .f32⟩
  | .local _ .vmem, ⟨21, _⟩ => ⟨S2000x133, .f32⟩
  | .local _ .vmem, ⟨22, _⟩ => ⟨S2000x133, .f32⟩
  | .local _ .vmem, ⟨23, _⟩ => ⟨S2000x300, .f32⟩
  | .local _ .vmem, ⟨24, _⟩ => ⟨S2000x300, .f32⟩
  | .local _ .vmem, ⟨25, _⟩ => ⟨S433x300, .f32⟩
  | .local _ .vmem, ⟨26, _⟩ => ⟨S1x300, .f32⟩
  | .local _ .vmem, ⟨27, _⟩ => ⟨S2000x300, .f32⟩
  | .local _ .vmem, ⟨28, _⟩ => ⟨S2000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_16 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_cst_19 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_20 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v72 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S433x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x300 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S2000x147_S2000x147_0_0 : ∀ a, (![0, 0] : Fin 2 → Nat) a + S2000x147.size a ≤ S2000x147.size a
  h_S2000x147 : 0 < S2000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S2000x300_S2000x300_0_0 : ∀ a, (![0, 0] : Fin 2 → Nat) a + S2000x300.size a ≤ S2000x300.size a
  h_S2000x300 : 0 < S2000x300.numel
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S2000x300_S2000x300 : S2000x300.ShapeCasts S2000x300
  inb_S300x300_S300x300_0_0 : ∀ a, (![0, 0] : Fin 2 → Nat) a + S300x300.size a ≤ S300x300.size a
  h_S300x300 : 0 < S300x300.numel
  shapeCasts_S300_S1x300 : S300.ShapeCasts S1x300
  inb_S2000x133_S2000x133_0_0 : ∀ a, (![0, 0] : Fin 2 → Nat) a + S2000x133.size a ≤ S2000x133.size a
  h_S2000x133 : 0 < S2000x133.numel
  concatenates_S2000x133_S2000x300_S2000x433_d1 : Shape.Concatenates [S2000x133, S2000x300] S2000x433 1
  inb_S433x300_S433x300_0_0 : ∀ a, (![0, 0] : Fin 2 → Nat) a + S433x300.size a ≤ S433x300.size a
  h_S433x300 : 0 < S433x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4000x1 : S_.BroadcastsInDim S4000x1 (![] : Fin 0 → Fin S4000x1.rank)
  bcast_S4000x1_S4000x300_0_1 : S4000x1.BroadcastsInDim S4000x300 (![0, 1] : Fin 2 → Fin S4000x300.rank)
  dot_S2000x147_S147x300_S2000x300_1_0_0_1_n_n_wf : DotDims.WF S2000x147 S147x300 S2000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S2000x300_S300x300_S2000x300_1_0_0_1_n_n_wf : DotDims.WF S2000x300 S300x300 S2000x300 [1] [0] [0] [1] [] []
  dot_S2000x433_S433x300_S2000x300_1_0_0_1_n_n_wf : DotDims.WF S2000x433 S433x300 S2000x300 [1] [0] [0] [1] [] []
  scatter_S4000x300_S100000x1_S100000x300_1_0_0_1_wf : ScatterDims.WF S4000x300 S100000x1 S100000x300 [1] [0] [0] 1
  scatter_S4000x1_S100000x1_S100000x1_1_0_0_1_wf : ScatterDims.WF S4000x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x147.size a ≤ S200000x147.size a
  hwx0_0 : ∀ i : grid0.Coords, EltTy.bits .f32 = 32 ∨ (Rect.block (s := S200000x147) S2000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x300.size a ≤ S200000x300.size a
  hwx0_2 : ∀ i : grid0.Coords, EltTy.bits .f32 = 32 ∨ (Rect.block (s := S200000x300) S2000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S200000x300.size a
  hwx0_3 : ∀ i : grid0.Coords, EltTy.bits .f32 = 32 ∨ (Rect.block (s := S200000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S200000x300.size a
  hwx1_0 : ∀ i : grid1.Coords, EltTy.bits .f32 = 32 ∨ (Rect.block (s := S200000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S200000x300.size a
  hwx1_1 : ∀ i : grid1.Coords, EltTy.bits .f32 = 32 ∨ (Rect.block (s := S200000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x300.size a ≤ S200000x300.size a
  hwx1_3 : ∀ i : grid1.Coords, EltTy.bits .f32 = 32 ∨ (Rect.block (s := S200000x300) S2000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S200000x300.size a
  hwx2_0 : ∀ i : grid2.Coords, EltTy.bits .f32 = 32 ∨ (Rect.block (s := S200000x300) S2000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x300.size a ≤ S200000x300.size a
  hwx2_1 : ∀ i : grid2.Coords, EltTy.bits .f32 = 32 ∨ (Rect.block (s := S200000x300) S2000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x300.size a ≤ S200000x300.size a
  hwx2_3 : ∀ i : grid2.Coords, EltTy.bits .f32 = 32 ∨ (Rect.block (s := S200000x300) S2000x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x133.size a ≤ S100000x133.size a
  hwx3_0 : ∀ i : grid3.Coords, EltTy.bits .f32 = 32 ∨ (Rect.block (s := S100000x133) S2000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S100000x300.size a
  hwx3_1 : ∀ i : grid3.Coords, EltTy.bits .f32 = 32 ∨ (Rect.block (s := S100000x300) S2000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S433x300.size a ≤ S433x300.size a
  hwx3_2 : ∀ i : grid3.Coords, EltTy.bits .f32 = 32 ∨ (Rect.block (s := S433x300) S433x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x300.size a ≤ S100000x300.size a
  hwx3_4 : ∀ i : grid3.Coords, EltTy.bits .f32 = 32 ∨ (Rect.block (s := S100000x300) S2000x300.size (cc3_transform_4 i) (hinb3_4 i)).WholeWords (EltTy.packing .f32)

variable [Facts₀]

def dot_S2000x147_S147x300_S2000x300_1_0_0_1_n_n : DotDims S2000x147 S147x300 S2000x300 where
  lhsContracting := [1]
  rhsContracting := [0]
  lhsNonContracting := [0]
  rhsNonContracting := [1]
  lhsBatch := []
  rhsBatch := []
  wf := dot_S2000x147_S147x300_S2000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x433_S433x300_S2000x300_1_0_0_1_n_n : DotDims S2000x433 S433x300 S2000x300 where
  lhsContracting := [1]
  rhsContracting := [0]
  lhsNonContracting := [0]
  rhsNonContracting := [1]
  lhsBatch := []
  rhsBatch := []
  wf := dot_S2000x433_S433x300_S2000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000x1_S100000x1_S100000x1_1_0_0_1 : ScatterDims S4000x1 S100000x1 S100000x1 where
  updateWindowDims := [1]
  insertedWindowDims := [0]
  scatterDimsToOperandDims := [0]
  indexVectorDim := 1
  wf := scatter_S4000x1_S100000x1_S100000x1_1_0_0_1_wf

abbrev win0_0 : Pipeline.Window sig grid0 :=
  Pipeline.Window.ofSpec (Memref.whole main_arg1) S2000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S433x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2000x300.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S4000x300 : Shape := ⟨2, ![4000, 300]⟩
abbrev S100000x1 : Shape := ⟨2, ![100000, 1]⟩
abbrev S4000x1 : Shape := ⟨2, ![4000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S_, .f32⟩
  | .hbm, ⟨12, _⟩ => ⟨S200000x300, .f32⟩
  | .hbm, ⟨13, _⟩ => ⟨S200000x300, .f32⟩
  | .hbm, ⟨14, _⟩ => ⟨S_, .i32⟩
  | .hbm, ⟨15, _⟩ => ⟨S100000x6, .i32⟩
  | .hbm, ⟨16, _⟩ => ⟨S100000x6, .i1⟩
  | .hbm, ⟨17, _⟩ => ⟨S_, .i32⟩
  | .hbm, ⟨18, _⟩ => ⟨S100000x6, .i32⟩
  | .hbm, ⟨19, _⟩ => ⟨S100000x6, .i32⟩
  | .hbm, ⟨20, _⟩ => ⟨S100000x6, .i32⟩
  | .hbm, ⟨21, _⟩ => ⟨S100000x6x1, .i32⟩
  | .hbm, ⟨22, _⟩ => ⟨S100000x6x300, .f32⟩
  | .hbm, ⟨23, _⟩ => ⟨S_, .f32⟩
  | .hbm, ⟨24, _⟩ => ⟨S100000x300, .f32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S200000x1, .i32⟩
  | .hbm, ⟨33, _⟩ => ⟨S200000x300, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S200000x300, .f32⟩
  | .hbm, ⟨46, _⟩ => ⟨S_, .f32⟩
  | .hbm, ⟨47, _⟩ => ⟨S200000x300, .f32⟩
  | .hbm, ⟨48, _⟩ => ⟨S200000x300, .f32⟩
  | .hbm, ⟨49, _⟩ => ⟨S_, .i32⟩
  | .hbm, ⟨50, _⟩ => ⟨S100000x6, .i32⟩
  | .hbm, ⟨51, _⟩ => ⟨S100000x6, .i1⟩
  | .hbm, ⟨52, _⟩ => ⟨S_, .i32⟩
  | .hbm, ⟨53, _⟩ => ⟨S100000x6, .i32⟩
  | .hbm, ⟨54, _⟩ => ⟨S100000x6, .i32⟩
  | .hbm, ⟨55, _⟩ => ⟨S100000x6, .i32⟩
  | .hbm, ⟨56, _⟩ => ⟨S100000x6x1, .i32⟩
  | .hbm, ⟨57, _⟩ => ⟨S100000x6x300, .f32⟩
  | .hbm, ⟨58, _⟩ => ⟨S_, .f32⟩
  | .hbm, ⟨59, _⟩ => ⟨S100000x300, .f32⟩
  | .hbm, ⟨60, _⟩ => ⟨S_, .i32⟩
  | .hbm, ⟨61, _⟩ => ⟨S200000, .i32⟩
  | .hbm, ⟨62, _⟩ => ⟨S200000, .i1⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000, .i32⟩
  | .hbm, ⟨67, _⟩ => ⟨S200000x1, .i32⟩
  | .hbm, ⟨68, _⟩ => ⟨S200000x300, .f32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S200000x300, .f32⟩
  | .hbm, ⟨81, _⟩ => ⟨S_, .f32⟩
  | .hbm, ⟨82, _⟩ => ⟨S200000x300, .f32⟩
  | .hbm, ⟨83, _⟩ => ⟨S200000x300, .f32⟩
  | .hbm, ⟨84, _⟩ => ⟨S_, .i32⟩
  | .hbm, ⟨85, _⟩ => ⟨S100000x6, .i32⟩
  | .hbm, ⟨86, _⟩ => ⟨S100000x6, .i1⟩
  | .hbm, ⟨87, _⟩ => ⟨S_, .i32⟩
  | .hbm, ⟨88, _⟩ => ⟨S100000x6, .i32⟩
  | .hbm, ⟨89, _⟩ => ⟨S100000x6, .i32⟩
  | .hbm, ⟨90, _⟩ => ⟨S100000x6, .i32⟩
  | .hbm, ⟨91, _⟩ => ⟨S100000x6x1, .i32⟩
  | .hbm, ⟨92, _⟩ => ⟨S100000x6x300, .f32⟩
  | .hbm, ⟨93, _⟩ => ⟨S_, .f32⟩
  | .hbm, ⟨94, _⟩ => ⟨S100000x300, .f32⟩
  | .hbm, ⟨95, _⟩ => ⟨S100000x433, .f32⟩
  | .hbm, ⟨96, _⟩ => ⟨S100000x300, .f32⟩
  | .hbm, ⟨97, _⟩ => ⟨S1x300, .f32⟩
  | .hbm, ⟨98, _⟩ => ⟨S100000x300, .f32⟩
  | .hbm, ⟨99, _⟩ => ⟨S100000x300, .f32⟩
  | .hbm, ⟨100, _⟩ => ⟨S_, .f32⟩
  | .hbm, ⟨101, _⟩ => ⟨S100000x300, .f32⟩
  | .hbm, ⟨102, _⟩ => ⟨S100000x300, .f32⟩
  | .hbm, ⟨103, _⟩ => ⟨S_, .f32⟩
  | .hbm, ⟨104, _⟩ => ⟨S4000x300, .f32⟩
  | .hbm, ⟨105, _⟩ => ⟨S100000x1, .i32⟩
  | .hbm, ⟨106, _⟩ => ⟨S4000x300, .f32⟩
  | .hbm, ⟨107, _⟩ => ⟨S_, .f32⟩
  | .hbm, ⟨108, _⟩ => ⟨S100000x1, .f32⟩
  | .hbm, ⟨109, _⟩ => ⟨S_, .f32⟩
  | .hbm, ⟨110, _⟩ => ⟨S4000x1, .f32⟩
  | .hbm, ⟨111, _⟩ => ⟨S100000x1, .i32⟩
  | .hbm, ⟨112, _⟩ => ⟨S4000x1, .f32⟩
  | .hbm, ⟨113, _⟩ => ⟨S_, .f32⟩
  | .hbm, ⟨114, _⟩ => ⟨S4000x1, .f32⟩
  | .hbm, ⟨115, _⟩ => ⟨S4000x1, .i1⟩
  | .hbm, ⟨116, _⟩ => ⟨S_, .f32⟩
  | .hbm, ⟨117, _⟩ => ⟨S4000x1, .f32⟩
  | .hbm, ⟨118, _⟩ => ⟨S4000x1, .f32⟩
  | .hbm, ⟨119, _⟩ => ⟨S4000x300, .f32⟩
  | .hbm, ⟨120, _⟩ => ⟨S4000x300, .f32⟩
  | .hbm, ⟨121, _⟩ => ⟨S_, .f32⟩
  | .hbm, ⟨122, _⟩ => ⟨S_, .f32⟩
  | .hbm, ⟨123, _⟩ => ⟨S4000x300, .i1⟩
  | .hbm, ⟨124, _⟩ => ⟨S4000x300, .f32⟩
  | .hbm, ⟨125, _⟩ => ⟨S4000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_cst_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_cst_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_20 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v81 : Ref sig .tc := ⟨.hbm, 125, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4000x1 : S_.BroadcastsInDim S4000x1 (![] : Fin 0 → Fin S4000x1.rank)
  bcast_S4000x1_S4000x300_0_1 : S4000x1.BroadcastsInDim S4000x300 (![0, 1] : Fin 2 → Fin S4000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S4000x300_S100000x1_S100000x300_1_0_0_1_wf : ScatterDims.WF S4000x300 S100000x1 S100000x300 [1] [0] [0] 1
  scatter_S4000x1_S100000x1_S100000x1_1_0_0_1_wf : ScatterDims.WF S4000x1 S100000x1 S100000x1 [1] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000x1_S100000x1_S100000x1_1_0_0_1 : ScatterDims S4000x1 S100000x1 S100000x1 where
  updateWindowDims := [1]
  insertedWindowDims := [0]
  scatterDimsToOperandDims := [0]
  indexVectorDim := 1
  wf := scatter_S4000x1_S100000x1_S100000x1_1_0_0_1_wf

class Facts : Prop extends Facts₀ where

variable [Facts]
-- ==== Proof.KRun.lean ====
/-
  The idealized kernel's run with its result named.

  The program is four kernel regions among stretches of host operations. Its run from any memory terminates without a
  fault; the final memory holds, at every unscoped buffer, the contents the fold through the program leaves there: each
  region's arrays at what its write-backs leave, each host stretch's buffers at the operations' values. Read at the
  result buffer this names the result; read at the argument buffers it says they end as launched.
-/
import proofs.«149245_j78967268704276_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents the
    fold through the program's segments leaves there, and the arguments end as launched. -/
theorem run : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.KRun

end
-- ==== Proof.Spec.lean ====
/-
  The network as one function of its ten arguments, on the extended reals.

  A directed message-passing encoder: bond features `fb` ([200000,147]) are mapped by `W_i` to the pre-activation
  `pre = fb · W_i`; the first message is `max pre 0`. Twice, every atom sums the messages of its six incoming bonds
  (`aggr`: a row gather by the table `a2b`, negative entries wrapped by the table's length, then a sum over the six
  neighbours), every bond takes its source atom's sum minus its reverse bond's message (`mnew`), and the message becomes
  `max (pre + mnew · W_h) 0` (`hidden`). A last aggregation, concatenated behind the atom features, goes through the output
  layer `max (cat · W_o + b_o) 0` (`atoms`); molecules average their atoms' rows (`pool`: two scatter-adds by molecule
  id, the row sums and the atom counts; the quotient by `max count 1` where the count is positive, zero elsewhere).

  Every piece is spelt with the host operations of the reference program, so that the reference's result is this
  function of the arguments by unfolding, and the kernel program — whose dense layers run as tiled kernels and whose
  gathers and scatters are the same host operations — is compared with it layer by layer.
-/
import proofs.«149245_j78967268704276_1_alg».proof.ReferenceIdeal
import proofs.«149245_j78967268704276_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- A float array of shape `s` on the extended reals. -/
abbrev TF (s : Shape) := FVec Ideal s .f32
/-- A 32-bit integer array of shape `s`. -/
abbrev TI (s : Shape) := IVec s 32

/-- The entrywise maximum with zero, on bond rows. -/
def relu2 (x : TF S200000x300) : TF S200000x300 :=
  maximumf x (broadcastInDim S200000x300 ![] bcast_S_S200000x300 (constant S_ .f32 0x00000000#32))

/-- The entrywise maximum with zero, on atom rows. -/
def relu1 (x : TF S100000x300) : TF S100000x300 :=
  maximumf x (broadcastInDim S100000x300 ![] bcast_S_S100000x300 (constant S_ .f32 0x00000000#32))

/-- The input layer: bond features times the input weights. -/
def pre (fb : TF S200000x147) (wi : TF S147x300) : TF S200000x300 :=
  Host.dotGeneral dot_S200000x147_S147x300_S200000x300_1_0_0_1_n_n none fb wi

/-- The neighbour table as gather start indices: a negative entry wrapped by the number of bonds, an index axis added. -/
def wrap6 (a2b : TI S100000x6) : TI S100000x6x1 :=
  broadcastInDim S100000x6x1 ![0, 1] bcast_S100000x6_S100000x6x1_0_1
    (select (cmpi .slt a2b (broadcastInDim S100000x6 ![] bcast_S_S100000x6 (constantI S_ 32 0#32)))
      (addi a2b (broadcastInDim S100000x6 ![] bcast_S_S100000x6 (constantI S_ 32 200000#32))) a2b)

/-- Every atom's sum of its six incoming bonds' messages. -/
def aggr (msg : TF S200000x300) (a2b : TI S100000x6) : TF S100000x300 :=
  Host.reduceAdd (Host.gather gather_S200000x300_S100000x6x1_S100000x6x300_2_0_n_n_0_2_1300 msg (wrap6 a2b))
    (constant S_ .f32 0x00000000#32) reducesTo_S100000x6x300_S100000x300_d1 h_S_

/-- A per-bond table as gather start indices: a negative entry wrapped by `n`, an index axis added. -/
def wrapCol (n : BitVec 32) (x : TI S200000) : TI S200000x1 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 n))) x)

/-- Every bond's new message: its source atom's sum minus its reverse bond's message. -/
def mnew (msg : TF S200000x300) (a2b : TI S100000x6) (b2a b2revb : TI S200000) : TF S200000x300 :=
  subf (Host.gather gather_S100000x300_S200000x1_S200000x300_1_0_n_n_0_1_1300 (aggr msg a2b) (wrapCol 100000#32 b2a))
    (Host.gather gather_S200000x300_S200000x1_S200000x300_1_0_n_n_0_1_1300 msg (wrapCol 200000#32 b2revb))

/-- One hidden update: `max (pre + mn · W_h) 0`. -/
def hidden (p mn : TF S200000x300) (wh : TF S300x300) : TF S200000x300 :=
  relu2 (addf p (Host.dotGeneral dot_S200000x300_S300x300_S200000x300_1_0_0_1_n_n none mn wh))

/-- The bias as a row over all atoms. -/
def biasRows (bo : TF S300) : TF S100000x300 :=
  broadcastInDim S100000x300 ![0, 1] bcast_S1x300_S100000x300_0_1 (broadcastInDim S1x300 ![1] bcast_S300_S1x300_1 bo)

/-- The output layer: `max ([f_atoms | a_message] · W_o + b_o) 0`. -/
def atoms (fa : TF S100000x133) (am : TF S100000x300) (wo : TF S433x300) (bo : TF S300) : TF S100000x300 :=
  relu1 (addf (Host.dotGeneral dot_S100000x433_S433x300_S100000x300_1_0_0_1_n_n none
      (concatenate S100000x433 1 [⟨S100000x133, fa⟩, ⟨S100000x300, am⟩] concatenates_S100000x133_S100000x300_S100000x433_d1) wo)
    (biasRows bo))

/-- The number of atoms of every molecule, as a column. -/
def counts (mol : TI S100000) : TF S4000x1 :=
  Host.scatterAdd scatter_S4000x1_S100000x1_S100000x1_1_0_0_1
    (broadcastInDim S4000x1 ![] bcast_S_S4000x1 (constant S_ .f32 0x00000000#32))
    (broadcastInDim S100000x1 ![0] bcast_S100000_S100000x1_0 mol)
    (broadcastInDim S100000x1 ![] bcast_S_S100000x1 (constant S_ .f32 0x3F800000#32))

/-- Every molecule's mean atom row; zero for a molecule without atoms. -/
def pool (ah : TF S100000x300) (mol : TI S100000) : TF S4000x300 :=
  select (broadcastInDim S4000x300 ![0, 1] bcast_S4000x1_S4000x300_0_1
      (cmpf (F := Ideal) .ogt (counts mol) (broadcastInDim S4000x1 ![] bcast_S_S4000x1 (constant S_ .f32 0x00000000#32))))
    (Host.divf (Host.scatterAdd scatter_S4000x300_S100000x1_S100000x300_1_0_0_1
        (broadcastInDim S4000x300 ![] bcast_S_S4000x300 (constant S_ .f32 0x00000000#32))
        (broadcastInDim S100000x1 ![0] bcast_S100000_S100000x1_0 mol) ah)
      (broadcastInDim S4000x300 ![0, 1] bcast_S4000x1_S4000x300_0_1
        (maximumf (counts mol) (broadcastInDim S4000x1 ![] bcast_S_S4000x1 (constant S_ .f32 0x3F800000#32)))))
    (broadcastInDim S4000x300 ![] bcast_S_S4000x300 (id (constant (F := Ideal) S_ .f32 0x00000000#32)))

/-- The first message. -/
def msg1 (fb : TF S200000x147) (wi : TF S147x300) : TF S200000x300 := relu2 (pre fb wi)

/-- The message after one more round of aggregation and update. -/
def step (fb : TF S200000x147) (wi : TF S147x300) (a2b : TI S100000x6) (b2a b2revb : TI S200000) (wh : TF S300x300)
    (msg : TF S200000x300) : TF S200000x300 :=
  hidden (pre fb wi) (mnew msg a2b b2a b2revb) wh

/-- The whole network. -/
def net (fa : TF S100000x133) (fb : TF S200000x147) (a2b : TI S100000x6) (b2a b2revb : TI S200000) (mol : TI S100000)
    (wi : TF S147x300) (wh : TF S300x300) (wo : TF S433x300) (bo : TF S300) : TF S4000x300 :=
  pool (atoms fa (aggr (step fb wi a2b b2a b2revb wh (step fb wi a2b b2a b2revb wh (msg1 fb wi))) a2b) wo bo) mol

end Cert.Spec

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Region0.lean ====
/-
  The first tiled region, read as whole arrays.

  The region walks the 200000 rows of the bond features in 100 blocks of 2000 rows. At each block it multiplies
  the [2000, 147] block by the whole [147, 300] weight matrix and writes the product to the same rows of the
  first output, and the entrywise maximum of that product with zero to the same rows of the second output.

  Entry (r, n) of a product of a block of rows with the weights is the sum over j < 147 of
  (row r of the block)(j) * W(j, n): it depends on that one row of the features only. So the product computed
  block by block agrees, entry by entry, with the product of the whole [200000, 147] array with the weights,
  whatever the arrays hold when the region is entered; and since the 100 blocks tile the 200000 rows, the two
  outputs end holding the whole product and its maximum with zero.
-/
import proofs.«149245_j78967268704276_1_alg».proof.Proof.Gen.KernelIdeal.Frame
import proofs.«149245_j78967268704276_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the arrays as the region finds them: every statement below holds for any such contents
variable (V : (c : Dev nD) → (b : Ref sig .tc) → Buf (Elt Ideal) ((c : Thread nD τ).loc b))

/-! ## One entry of the block product and of the whole product -/

/-- The block product contracts the last axis of its left operand with the first axis of its right operand and
    has no batch axis: the plain dimension numbers, at the extents 2000, 147, 300. -/
theorem dims_eq : dot_S2000x147_S147x300_S2000x300_1_0_0_1_n_n = DotDims.plain 2000 147 300 := rfl

/-- Entry (r, n) of the block product is the sum over the contracted coordinate k < 147 of x0(r, k) * x1(k, n):
    on the extended reals the changes of float format are the identity, and a product accumulated into the zero
    splat is the bare sum. -/
theorem pay1_apply (x0 : Vec Ideal S2000x147 .f32) (x1 : Vec Ideal S147x300 .f32) (r : Fin 2000) (n : Fin 300) :
    k0_pay1 (F := Ideal) x0 x1 (ix2 r n) = ∑ k : Fin 147, x0 (ix2 r k) * x1 (ix2 k n) := by
  unfold k0_pay1
  rw [dims_eq]
  show FloatOps.matmul (DotDims.plain 2000 147 300) none x0 x1 (constant (F := Ideal) S2000x300 .f32 0x00000000#32) (ix2 r n) = _
  rw [Ideal.matmul_constant_zero_apply, Cert.DenseRows.plain_contr_sum]

/-- Entry (r, n) of the product of the whole arrays is the same sum, over row r of all 200000. -/
theorem dot_apply (a : FVec Ideal S200000x147 .f32) (w : FVec Ideal S147x300 .f32) (r : Fin 200000) (n : Fin 300) :
    Host.dotGeneral (F := Ideal) (DotDims.plain 200000 147 300) none a w (ix2 r n) = ∑ k : Fin 147, a (ix2 r k) * w (ix2 k n) := by
  show FloatOps.dotGeneral (DotDims.plain 200000 147 300) none .single a w (ix2 r n) = _
  rw [Ideal.dotGeneral_apply, Cert.DenseRows.plain_contr_sum]

/-- ROW BY ROW. If row (j 0) of the block x0 is row (i 0) of the array a, and column (j 1) of x1 is column (i 1)
    of w, then entry j of the block product is entry i of the whole product: both are the same sum of 147
    products, term by term. -/
theorem pay1_eq_dot (x0 : Vec Ideal S2000x147 .f32) (x1 : Vec Ideal S147x300 .f32)
    (a : FVec Ideal S200000x147 .f32) (w : FVec Ideal S147x300 .f32) (j : S2000x300.Idx) (i : S200000x300.Idx)
    (h0 : ∀ k : Fin 147, x0 (ix2 (j 0) k) = a (ix2 (i 0) k)) (h1 : ∀ k : Fin 147, x1 (ix2 k (j 1)) = w (ix2 k (i 1))) :
    k0_pay1 (F := Ideal) x0 x1 j = Host.dotGeneral (F := Ideal) (DotDims.plain 200000 147 300) none a w i :=
  calc k0_pay1 (F := Ideal) x0 x1 j = k0_pay1 (F := Ideal) x0 x1 (ix2 (j 0) (j 1)) := congrArg _ (eq_ix2 j)
    _ = ∑ k : Fin 147, x0 (ix2 (j 0) k) * x1 (ix2 k (j 1)) := pay1_apply x0 x1 (j 0) (j 1)
    _ = ∑ k : Fin 147, a (ix2 (i 0) k) * w (ix2 k (i 1)) := Finset.sum_congr rfl fun k _ => by rw [h0 k, h1 k]
    _ = Host.dotGeneral (F := Ideal) (DotDims.plain 200000 147 300) none a w (ix2 (i 0) (i 1)) := (dot_apply a w (i 0) (i 1)).symm
    _ = Host.dotGeneral (F := Ideal) (DotDims.plain 200000 147 300) none a w i := congrArg _ (eq_ix2 i).symm

/-- The same for the second payload: the maximum of the block product with the zero scalar splat over the block
    is, entry by entry, the maximum of the whole product with the zero scalar broadcast over the whole output —
    a splat reads its one entry at every index. -/
theorem pay2_eq_max (x0 : Vec Ideal S2000x147 .f32) (x1 : Vec Ideal S147x300 .f32)
    (a : FVec Ideal S200000x147 .f32) (w : FVec Ideal S147x300 .f32) (j : S2000x300.Idx) (i : S200000x300.Idx)
    (hb : S_.BroadcastsInDim S200000x300 (![] : Fin S_.rank → Fin S200000x300.rank))
    (h0 : ∀ k : Fin 147, x0 (ix2 (j 0) k) = a (ix2 (i 0) k)) (h1 : ∀ k : Fin 147, x1 (ix2 k (j 1)) = w (ix2 k (i 1))) :
    k0_pay2 (F := Ideal) x0 x1 j
      = maximumf (Host.dotGeneral (F := Ideal) (DotDims.plain 200000 147 300) none a w)
          (broadcastInDim S200000x300 ![] hb (constant (F := Ideal) S_ .f32 0x00000000#32)) i := by
  show max (k0_pay1 (F := Ideal) x0 x1 j) (Ideal.ofBits .f32 0x00000000#32)
      = max (Host.dotGeneral (F := Ideal) (DotDims.plain 200000 147 300) none a w i)
          (broadcastInDim S200000x300 ![] hb (constant (F := Ideal) S_ .f32 0x00000000#32) i)
  rw [pay1_eq_dot x0 x1 a w j i h0 h1, Cert.DenseRows.splat_apply]
  rfl

/-! ## Where each block sits -/

theorem hz : (![0, 0] : Fin 2 → Nat) = fun _ => 0 := funext fun a => by fin_cases a <;> rfl

/-- The block indices at grid point t, over the 100 points: the feature block and both output blocks are the
    t-th block of rows and start at column 0; the weight block is the whole matrix at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-! ## What a point writes back -/

/-- Point t writes to the first output block t of the whole product. An entry (r, n) of the block sits in the
    array at (2000 * t + r, n); row r of the feature block is row 2000 * t + r of the features, and the weight
    block is the weights, so the row-by-row lemma applies. -/
theorem flushed2_eq (c : Dev nD) (t : Fin cfg0.N) :
    (dat0 (F := Ideal) V c).flushed 2 t = ((cfg0.win 2).blk t).view.read (Elt Ideal) (Host.dotGeneral (F := Ideal) (φ₁ := .f32) (φ₂ := .f32) (DotDims.plain 200000 147 300) none (V c main_arg1) (V c main_arg6)) := by
  show (cfg0.win 2).cut (grid0.coords t) ((dat0 (F := Ideal) V c).after 2 t) = _
  rw [after0_2]
  unfold out0_2
  rw [View.canon_unit_zero hz]
  simp only [View.ld_unit_zero (S := S2000x147) hz, View.ld_unit_zero (S := S147x300) hz]
  obtain ⟨e0, e1, e2, e3, e4, e5, e6, e7⟩ := idx_facts t
  funext j
  refine pay1_eq_dot (iblk0 V c 0 t) (iblk0 V c 1 t) (V c main_arg1) (V c main_arg6) j (((cfg0.win 2).blk t).view.emb j) ?_ ?_
  · intro k
    show V c main_arg1 (((cfg0.win 0).blk t).view.emb (ix2 (j 0) k)) = V c main_arg1 (ix2 ((((cfg0.win 2).blk t).view.emb j) 0) k)
    refine congrArg _ ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 147 + 1 * k.val = k.val; omega
  · intro k
    show V c main_arg6 (((cfg0.win 1).blk t).view.emb (ix2 k (j 1))) = V c main_arg6 (ix2 k ((((cfg0.win 2).blk t).view.emb j) 1))
    refine congrArg _ ?_
    funext a; apply Fin.ext
    match a with
    | ⟨0, _⟩ => show win0_1.index t (0 : Fin 2) * 147 + 1 * k.val = k.val; omega
    | ⟨1, _⟩ => show win0_1.index t (1 : Fin 2) * 300 + 1 * (j 1).val = win0_2.index t (1 : Fin 2) * 300 + 1 * (j 1).val; omega

/-- Point t writes to the second output block t of the maximum of the whole product with zero: the same
    coordinates, through the second payload. -/
theorem flushed3_eq (c : Dev nD) (hb : S_.BroadcastsInDim S200000x300 (![] : Fin S_.rank → Fin S200000x300.rank)) (t : Fin cfg0.N) :
    (dat0 (F := Ideal) V c).flushed 3 t = ((cfg0.win 3).blk t).view.read (Elt Ideal)
      (maximumf (Host.dotGeneral (F := Ideal) (φ₁ := .f32) (φ₂ := .f32) (DotDims.plain 200000 147 300) none (V c main_arg1) (V c main_arg6)) (broadcastInDim S200000x300 ![] hb (constant (F := Ideal) S_ .f32 0x00000000#32))) := by
  show (cfg0.win 3).cut (grid0.coords t) ((dat0 (F := Ideal) V c).after 3 t) = _
  rw [after0_3]
  unfold out0_3
  rw [View.canon_unit_zero hz]
  simp only [View.ld_unit_zero (S := S2000x147) hz, View.ld_unit_zero (S := S147x300) hz]
  obtain ⟨e0, e1, e2, e3, e4, e5, e6, e7⟩ := idx_facts t
  funext j
  refine pay2_eq_max (iblk0 V c 0 t) (iblk0 V c 1 t) (V c main_arg1) (V c main_arg6) j (((cfg0.win 3).blk t).view.emb j) hb ?_ ?_
  · intro k
    show V c main_arg1 (((cfg0.win 0).blk t).view.emb (ix2 (j 0) k)) = V c main_arg1 (ix2 ((((cfg0.win 3).blk t).view.emb j) 0) k)
    refine congrArg _ ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 147 + 1 * k.val = k.val; omega
  · intro k
    show V c main_arg6 (((cfg0.win 1).blk t).view.emb (ix2 k (j 1))) = V c main_arg6 (ix2 k ((((cfg0.win 3).blk t).view.emb j) 1))
    refine congrArg _ ?_
    funext a; apply Fin.ext
    match a with
    | ⟨0, _⟩ => show win0_1.index t (0 : Fin 2) * 147 + 1 * k.val = k.val; omega
    | ⟨1, _⟩ => show win0_1.index t (1 : Fin 2) * 300 + 1 * (j 1).val = win0_3.index t (1 : Fin 2) * 300 + 1 * (j 1).val; omega

/-! ## The blocks tile the outputs -/

/-- An index of the first output is in point t's block iff each coordinate is in the block's range on its axis. -/
theorem mem_blk2 (t : Fin cfg0.N) (i : S200000x300.Idx) :
    i ∈ ((cfg0.win 2).blk t).view.set ↔ ∀ a : Fin 2, win0_2.index t a * S2000x300.size a ≤ (i a).val ∧ (i a).val < win0_2.index t a * S2000x300.size a + S2000x300.size a := by
  show i ∈ ((View.whole main_v0_0).slice (win0_2.rect t)).set ↔ _
  rw [View.set_slice_whole, Rect.mem_set_unit]
  exact Iff.rfl

/-- The same for the second output. -/
theorem mem_blk3 (t : Fin cfg0.N) (i : S200000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v0_1).slice (win0_3.rect t)).set ↔ _
  rw [View.set_slice_whole, Rect.mem_set_unit]
  exact Iff.rfl

/-- Every index (r, n) of the first output is in the block of point r / 2000, which is below 100 since
    r < 200000: 2000 * (r / 2000) ≤ r < 2000 * (r / 2000) + 2000, and the block spans all 300 columns. -/
theorem cover2 (i : S200000x300.Idx) : ∃ t : Fin cfg0.N, (cfg0.win 2).flush t = true ∧ i ∈ ((cfg0.win 2).blk t).view.set := by
  have hi0 : (i 0).val < 200000 := (i 0).isLt
  have hi1 : (i 1).val < 300 := (i 1).isLt
  have hN : (i 0).val / 2000 < cfg0.N := by rw [show cfg0.N = 100 from N_0]; omega
  refine ⟨⟨(i 0).val / 2000, hN⟩, flush0_2 _, ?_⟩
  obtain ⟨e0, e1, e2, e3, e4, e5, e6, e7⟩ := idx_facts ⟨(i 0).val / 2000, hN⟩
  rw [mem_blk2]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, hN⟩ (1 : Fin 2) * 300 ≤ (i 1).val ∧ (i 1).val < win0_2.index ⟨(i 0).val / 2000, hN⟩ (1 : Fin 2) * 300 + 300; rw [e5]; omega

/-- The same for the second output. -/
theorem cover3 (i : S200000x300.Idx) : ∃ t : Fin cfg0.N, (cfg0.win 3).flush t = true ∧ i ∈ ((cfg0.win 3).blk t).view.set := by
  have hi0 : (i 0).val < 200000 := (i 0).isLt
  have hi1 : (i 1).val < 300 := (i 1).isLt
  have hN : (i 0).val / 2000 < cfg0.N := by rw [show cfg0.N = 100 from N_0]; omega
  refine ⟨⟨(i 0).val / 2000, hN⟩, flush0_3 _, ?_⟩
  obtain ⟨e0, e1, e2, e3, e4, e5, e6, e7⟩ := idx_facts ⟨(i 0).val / 2000, hN⟩
  rw [mem_blk3]
  intro a
  match a with
  | ⟨0, _⟩ => show win0_3.index ⟨(i 0).val / 2000, hN⟩ (0 : Fin 2) * 2000 ≤ (i 0).val ∧ (i 0).val < win0_3.index ⟨(i 0).val / 2000, hN⟩ (0 : Fin 2) * 2000 + 2000; rw [e6]; show (i 0).val / 2000 * 2000 ≤ (i 0).val ∧ (i 0).val < (i 0).val / 2000 * 2000 + 2000; omega
  | ⟨1, _⟩ => show win0_3.index ⟨(i 0).val / 2000, hN⟩ (1 : Fin 2) * 300 ≤ (i 1).val ∧ (i 1).val < win0_3.index ⟨(i 0).val / 2000, hN⟩ (1 : Fin 2) * 300 + 300; rw [e7]; omega

/-! ## The two outputs, whole -/

/-- THE FIRST OUTPUT after the region: the product of the bond features, all 200000 rows, with the weights —
    every point writes its block of that one array, and the blocks cover it. -/
theorem pre_eq (c : Dev nD) :
    (dat0 (F := Ideal) V c).arrAt 2 cfg0.N
      = Host.dotGeneral (F := Ideal) (φ₁ := .f32) (φ₂ := .f32) (DotDims.plain 200000 147 300) none (V c main_arg1) (V c main_arg6) :=
  (dat0 (F := Ideal) V c).arrAt_eq_of_cover 2 _ (fun t _ => flushed2_eq V c t) cover2

/-- THE SECOND OUTPUT after the region: the entrywise maximum of that product with zero. -/
theorem msg_eq (c : Dev nD) (h0 : S_.BroadcastsInDim S200000x300 (![] : Fin S_.rank → Fin S200000x300.rank)) :
    (dat0 (F := Ideal) V c).arrAt 3 cfg0.N
      = maximumf (Host.dotGeneral (F := Ideal) (φ₁ := .f32) (φ₂ := .f32) (DotDims.plain 200000 147 300) none (V c main_arg1) (V c main_arg6))
          (broadcastInDim S200000x300 ![] h0 (constant (F := Ideal) S_ .f32 0x00000000#32)) :=
  (dat0 (F := Ideal) V c).arrAt_eq_of_cover 3 _ (fun t _ => flushed3_eq V c h0 t) cover3

end Cert.KernelIdeal.Region0

end
-- ==== Proof.Region1.lean ====
/-
  The hidden update of region 1, read as one array.

  The region tiles the rows of three `[200000, 300]` arrays into 100 blocks of 2000 rows and keeps the `[300, 300]`
  weights whole. At each block it leaves `max (pre + mnew · W, 0)`: the pre-activation block plus the message block
  times the weights, floored at zero. Entry `(r, k)` of a block depends on row `r` of the two row blocks alone, and row
  `r` of block `t` is row `2000 * t + r` of its array; so each block is the restriction to its rows of one whole-array
  term, `max (pre + mnew · W, 0)` of the arrays themselves, and since the 100 blocks cover every row the output array
  ends holding that term — for any contents of the buffers when the region is entered.

  The steps: the payload at an index as a floored sum (`pay_apply`), the whole-array term at an index as the same
  floored sum (`target_apply`), the two joined row by row (`block_apply`), what a point writes back as a block of the
  whole-array term (`flushed_eq`), the blocks' ranges and their cover of the array (`mem_blk`, `cover`), and the
  array after the last point (`out_eq`).
-/
import proofs.«149245_j78967268704276_1_alg».proof.Proof.Gen.KernelIdeal.Frame
import proofs.«149245_j78967268704276_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-shape access, however spelt. -/
theorem hz : (![0, 0] : Fin 2 → Nat) = fun _ => 0 := funext fun a => by fin_cases a <;> rfl

/-- Entry `(r, k)` of the payload: the pre-activation entry plus the contraction of row `r` of the message block with
    column `k` of the weights, floored at zero. The two same-shape casts and the two changes of float format are
    identities on the extended reals; the product accumulated into the zero splat is the plain sum. -/
theorem pay_apply (x : Vec Ideal S2000x300 .f32) (w : Vec Ideal S300x300 .f32) (p : Vec Ideal S2000x300 .f32)
    (r : Fin 2000) (k : Fin 300) :
    k1_pay1 x w p (ix2 r k)
      = max (p (ix2 r k) + ∑ j : Fin 300, x (ix2 r j) * w (ix2 j k)) (Ideal.ofBits .f32 0x00000000#32) := by
  unfold k1_pay1
  simp only [shapeCast_self]
  show max (p (ix2 r k) + FloatOps.matmul (DotDims.plain 2000 300 300) none x w (constant (F := Ideal) S2000x300 .f32 0x00000000#32) (ix2 r k)) (Ideal.ofBits .f32 0x00000000#32) = _
  rw [Ideal.matmul_constant_zero_apply, Cert.DenseRows.plain_contr_sum]

/-- The whole-array term: the pre-activation plus the message times the weights, floored at the zero splat. -/
abbrev G (h0 : S_.BroadcastsInDim S200000x300 (![] : Fin S_.rank → Fin S200000x300.rank))
    (pre mnew : FVec Ideal S200000x300 .f32) (W : FVec Ideal S300x300 .f32) : FVec Ideal S200000x300 .f32 :=
  maximumf (addf pre (Host.dotGeneral (F := Ideal) (DotDims.plain 200000 300 300) none mnew W))
    (broadcastInDim S200000x300 ![] h0 (constant (F := Ideal) S_ .f32 0x00000000#32))

/-- Entry `(r, k)` of the whole-array term: the same expression of row `r` of the two row-indexed arrays. -/
theorem target_apply (h0 : S_.BroadcastsInDim S200000x300 (![] : Fin S_.rank → Fin S200000x300.rank))
    (pre mnew : FVec Ideal S200000x300 .f32) (W : FVec Ideal S300x300 .f32) (r : Fin 200000) (k : Fin 300) :
    G h0 pre mnew W (ix2 r k)
      = max (pre (ix2 r k) + ∑ j : Fin 300, mnew (ix2 r j) * W (ix2 j k)) (Ideal.ofBits .f32 0x00000000#32) := by
  show max (pre (ix2 r k) + FloatOps.dotGeneral (DotDims.plain 200000 300 300) none .single mnew W (ix2 r k))
      (broadcastInDim S200000x300 ![] h0 (constant (F := Ideal) S_ .f32 0x00000000#32) (ix2 r k)) = _
  rw [Ideal.dotGeneral_apply, Cert.DenseRows.plain_contr_sum, Cert.DenseRows.splat_apply]
  rfl

/-- The payload of a block whose row `r` is row `R` of the row-indexed arrays and whose weights are the whole weight
    array is, at `(r, k)`, the whole-array term at `(R, k)`: both are the same expression of row `R`. -/
theorem block_apply (h0 : S_.BroadcastsInDim S200000x300 (![] : Fin S_.rank → Fin S200000x300.rank))
    (pre mnew : FVec Ideal S200000x300 .f32) (W : FVec Ideal S300x300 .f32)
    (x p : Vec Ideal S2000x300 .f32) (w : Vec Ideal S300x300 .f32) (r : Fin 2000) (k : Fin 300) (R : Fin 200000)
    (hx : ∀ j : Fin 300, x (ix2 r j) = mnew (ix2 R j)) (hp : p (ix2 r k) = pre (ix2 R k))
    (hw : ∀ j : Fin 300, w (ix2 j k) = W (ix2 j k)) :
    k1_pay1 x w p (ix2 r k) = G h0 pre mnew W (ix2 R k) := by
  rw [pay_apply, target_apply, hp]
  simp only [hx, hw]

/-- The printed index maps over the grid: at point `t` the three row-tiled windows sit at block row `t`, block column
    zero; the weight window at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array term of the arrays the region reads: row `r` of the
    block is row `2000 * t + r` of the array, and the payload at `(r, k)` reads row `r` of the two row blocks, which are
    rows `2000 * t + r` of their arrays, and the whole weight array. -/
theorem flushed_eq (c : Dev nD) (h0 : S_.BroadcastsInDim S200000x300 (![] : Fin S_.rank → Fin S200000x300.rank)) (t : Fin cfg1.N) :
    (dat1 (F := Ideal) V c).flushed 3 t
      = ((cfg1.win 3).blk t).view.read (Elt Ideal) (G h0 (V c main_v0_0) (V c main_v23) (V c main_arg7)) := by
  show (cfg1.win 3).cut (grid1.coords t) ((dat1 (F := Ideal) V c).after 3 t) = _
  rw [after1_3]
  unfold out1_3
  rw [View.canon_unit_zero hz]
  simp only [View.ld_unit_zero (S := S2000x300) hz, View.ld_unit_zero (S := S300x300) hz]
  funext j
  obtain ⟨r, k, rfl⟩ : ∃ (r : Fin 2000) (k : Fin 300), j = ix2 r k := ⟨j 0, j 1, eq_ix2 (n0 := 2000) (n1 := 300) j⟩
  obtain ⟨a0, a1, b0, b1, w0, w1, o0, o1⟩ := idx_facts t
  have ht : t.val < 100 := lt_of_lt_of_eq t.isLt N_1
  have hR : t.val * 2000 + r.val < 200000 := by have := r.isLt; omega
  have eo : ((cfg1.win 3).blk t).view.emb (ix2 r k) = (ix2 ⟨t.val * 2000 + r.val, hR⟩ k : S200000x300.Idx) := by
    funext a; apply Fin.ext
    match a with
    | ⟨0, _⟩ => show win1_3.index t (0 : Fin 2) * 2000 + 1 * r.val = t.val * 2000 + r.val; omega
    | ⟨1, _⟩ => show win1_3.index t (1 : Fin 2) * 300 + 1 * k.val = k.val; omega
  show k1_pay1 (iblk1 V c 1 t) (iblk1 V c 2 t) (iblk1 V c 0 t) (ix2 r k)
    = G h0 (V c main_v0_0) (V c main_v23) (V c main_arg7) (((cfg1.win 3).blk t).view.emb (ix2 r k))
  rw [eo]
  refine block_apply h0 _ _ _ _ _ _ r k ⟨_, hR⟩ (fun j => ?_) ?_ (fun j => ?_)
  · show V c main_v23 (((cfg1.win 1).blk t).view.emb (ix2 r j)) = V c main_v23 (ix2 ⟨t.val * 2000 + r.val, hR⟩ j)
    refine congrArg (V c main_v23) ?_
    funext a; apply Fin.ext
    match a with
    | ⟨0, _⟩ => show win1_1.index t (0 : Fin 2) * 2000 + 1 * r.val = t.val * 2000 + r.val; omega
    | ⟨1, _⟩ => show win1_1.index t (1 : Fin 2) * 300 + 1 * j.val = j.val; omega
  · show V c main_v0_0 (((cfg1.win 0).blk t).view.emb (ix2 r k)) = V c main_v0_0 (ix2 ⟨t.val * 2000 + r.val, hR⟩ k)
    refine congrArg (V c main_v0_0) ?_
    funext a; apply Fin.ext
    match a with
    | ⟨0, _⟩ => show win1_0.index t (0 : Fin 2) * 2000 + 1 * r.val = t.val * 2000 + r.val; omega
    | ⟨1, _⟩ => show win1_0.index t (1 : Fin 2) * 300 + 1 * k.val = k.val; omega
  · show V c main_arg7 (((cfg1.win 2).blk t).view.emb (ix2 j k)) = V c main_arg7 (ix2 j k)
    refine congrArg (V c main_arg7) ?_
    funext a; apply Fin.ext
    match a with
    | ⟨0, _⟩ => show win1_2.index t (0 : Fin 2) * 300 + 1 * j.val = j.val; omega
    | ⟨1, _⟩ => show win1_2.index t (1 : Fin 2) * 300 + 1 * k.val = k.val; omega

/-- An index of the array is in point `t`'s block iff each coordinate is in the block's range on its axis. -/
theorem mem_blk (t : Fin cfg1.N) (i : S200000x300.Idx) :
    i ∈ ((cfg1.win 3).blk t).view.set ↔ ∀ a : Fin 2, win1_3.index t a * S2000x300.size a ≤ (i a).val ∧ (i a).val < win1_3.index t a * S2000x300.size a + S2000x300.size a := by
  show i ∈ ((View.whole main_v24).slice (win1_3.rect t)).set ↔ _
  rw [View.set_slice_whole, Rect.mem_set_unit]
  exact Iff.rfl

/-- Every index of the array is in some point's block: row `r` is in the block of point `r / 2000`. -/
theorem cover (i : S200000x300.Idx) :
    ∃ t : Fin cfg1.N, (cfg1.win 3).flush t = true ∧ i ∈ ((cfg1.win 3).blk t).view.set := by
  have hi0 : (i 0).val < 200000 := (i 0).isLt
  have hi1 : (i 1).val < 300 := (i 1).isLt
  have hN : cfg1.N = 100 := N_1
  let t : Fin cfg1.N := ⟨(i 0).val / 2000, by rw [hN]; omega⟩
  obtain ⟨-, -, -, -, -, -, o0, o1⟩ := idx_facts t
  have o0' : win1_3.index t (0 : Fin 2) = (i 0).val / 2000 := o0
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 300 ≤ (i 1).val ∧ (i 1).val < win1_3.index t (1 : Fin 2) * 300 + 300; omega

/-- The array the region leaves, for any entry contents: the whole-array term of the arrays it reads. -/
theorem out_eq (c : Dev nD) (h0 : S_.BroadcastsInDim S200000x300 (![] : Fin S_.rank → Fin S200000x300.rank)) :
    (dat1 (F := Ideal) V c).arrAt 3 cfg1.N
      = maximumf (addf (V c main_v0_0) (Host.dotGeneral (F := Ideal) (φ₁ := .f32) (φ₂ := .f32) (DotDims.plain 200000 300 300) none
              (V c main_v23) (V c main_arg7)))
          (broadcastInDim S200000x300 ![] h0 (constant (F := Ideal) S_ .f32 0x00000000#32)) :=
  (dat1 (F := Ideal) V c).arrAt_eq_of_cover 3 (G h0 (V c main_v0_0) (V c main_v23) (V c main_arg7))
    (fun t _ => flushed_eq V c h0 t) cover

end Cert.KernelIdeal.Region1

end
-- ==== Proof.Region2.lean ====
/-
  The hidden update of region 2, read as one array.

  The region tiles the rows of three `[200000, 300]` arrays into 100 blocks of 2000 rows and keeps the `[300, 300]`
  weights whole. At each block it leaves `max (pre + mnew · W, 0)`: the pre-activation block plus the message block
  times the weights, floored at zero. Entry `(r, k)` of a block depends on row `r` of the two row blocks alone, and row
  `r` of block `t` is row `2000 * t + r` of its array; so each block is the restriction to its rows of one whole-array
  term, `max (pre + mnew · W, 0)` of the arrays themselves, and since the 100 blocks cover every row the output array
  ends holding that term — for any contents of the buffers when the region is entered.

  The steps: the payload at an index as a floored sum (`pay_apply`), the whole-array term at an index as the same
  floored sum (`target_apply`), the two joined row by row (`block_apply`), what a point writes back as a block of the
  whole-array term (`flushed_eq`), the blocks' ranges and their cover of the array (`mem_blk`, `cover`), and the
  array after the last point (`out_eq`).
-/
import proofs.«149245_j78967268704276_1_alg».proof.Proof.Gen.KernelIdeal.Frame
import proofs.«149245_j78967268704276_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-shape access, however spelt. -/
theorem hz : (![0, 0] : Fin 2 → Nat) = fun _ => 0 := funext fun a => by fin_cases a <;> rfl

/-- Entry `(r, k)` of the payload: the pre-activation entry plus the contraction of row `r` of the message block with
    column `k` of the weights, floored at zero. The two same-shape casts and the two changes of float format are
    identities on the extended reals; the product accumulated into the zero splat is the plain sum. -/
theorem pay_apply (x : Vec Ideal S2000x300 .f32) (w : Vec Ideal S300x300 .f32) (p : Vec Ideal S2000x300 .f32)
    (r : Fin 2000) (k : Fin 300) :
    k2_pay1 x w p (ix2 r k)
      = max (p (ix2 r k) + ∑ j : Fin 300, x (ix2 r j) * w (ix2 j k)) (Ideal.ofBits .f32 0x00000000#32) := by
  unfold k2_pay1
  simp only [shapeCast_self]
  show max (p (ix2 r k) + FloatOps.matmul (DotDims.plain 2000 300 300) none x w (constant (F := Ideal) S2000x300 .f32 0x00000000#32) (ix2 r k)) (Ideal.ofBits .f32 0x00000000#32) = _
  rw [Ideal.matmul_constant_zero_apply, Cert.DenseRows.plain_contr_sum]

/-- The whole-array term: the pre-activation plus the message times the weights, floored at the zero splat. -/
abbrev G (h0 : S_.BroadcastsInDim S200000x300 (![] : Fin S_.rank → Fin S200000x300.rank))
    (pre mnew : FVec Ideal S200000x300 .f32) (W : FVec Ideal S300x300 .f32) : FVec Ideal S200000x300 .f32 :=
  maximumf (addf pre (Host.dotGeneral (F := Ideal) (DotDims.plain 200000 300 300) none mnew W))
    (broadcastInDim S200000x300 ![] h0 (constant (F := Ideal) S_ .f32 0x00000000#32))

/-- Entry `(r, k)` of the whole-array term: the same expression of row `r` of the two row-indexed arrays. -/
theorem target_apply (h0 : S_.BroadcastsInDim S200000x300 (![] : Fin S_.rank → Fin S200000x300.rank))
    (pre mnew : FVec Ideal S200000x300 .f32) (W : FVec Ideal S300x300 .f32) (r : Fin 200000) (k : Fin 300) :
    G h0 pre mnew W (ix2 r k)
      = max (pre (ix2 r k) + ∑ j : Fin 300, mnew (ix2 r j) * W (ix2 j k)) (Ideal.ofBits .f32 0x00000000#32) := by
  show max (pre (ix2 r k) + FloatOps.dotGeneral (DotDims.plain 200000 300 300) none .single mnew W (ix2 r k))
      (broadcastInDim S200000x300 ![] h0 (constant (F := Ideal) S_ .f32 0x00000000#32) (ix2 r k)) = _
  rw [Ideal.dotGeneral_apply, Cert.DenseRows.plain_contr_sum, Cert.DenseRows.splat_apply]
  rfl

/-- The payload of a block whose row `r` is row `R` of the row-indexed arrays and whose weights are the whole weight
    array is, at `(r, k)`, the whole-array term at `(R, k)`: both are the same expression of row `R`. -/
theorem block_apply (h0 : S_.BroadcastsInDim S200000x300 (![] : Fin S_.rank → Fin S200000x300.rank))
    (pre mnew : FVec Ideal S200000x300 .f32) (W : FVec Ideal S300x300 .f32)
    (x p : Vec Ideal S2000x300 .f32) (w : Vec Ideal S300x300 .f32) (r : Fin 2000) (k : Fin 300) (R : Fin 200000)
    (hx : ∀ j : Fin 300, x (ix2 r j) = mnew (ix2 R j)) (hp : p (ix2 r k) = pre (ix2 R k))
    (hw : ∀ j : Fin 300, w (ix2 j k) = W (ix2 j k)) :
    k2_pay1 x w p (ix2 r k) = G h0 pre mnew W (ix2 R k) := by
  rw [pay_apply, target_apply, hp]
  simp only [hx, hw]

/-- The printed index maps over the grid: at point `t` the three row-tiled windows sit at block row `t`, block column
    zero; the weight window at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array term of the arrays the region reads: row `r` of the
    block is row `2000 * t + r` of the array, and the payload at `(r, k)` reads row `r` of the two row blocks, which are
    rows `2000 * t + r` of their arrays, and the whole weight array. -/
theorem flushed_eq (c : Dev nD) (h0 : S_.BroadcastsInDim S200000x300 (![] : Fin S_.rank → Fin S200000x300.rank)) (t : Fin cfg2.N) :
    (dat2 (F := Ideal) V c).flushed 3 t
      = ((cfg2.win 3).blk t).view.read (Elt Ideal) (G h0 (V c main_v0_0) (V c main_v47) (V c main_arg7)) := by
  show (cfg2.win 3).cut (grid2.coords t) ((dat2 (F := Ideal) V c).after 3 t) = _
  rw [after2_3]
  unfold out2_3
  rw [View.canon_unit_zero hz]
  simp only [View.ld_unit_zero (S := S2000x300) hz, View.ld_unit_zero (S := S300x300) hz]
  funext j
  obtain ⟨r, k, rfl⟩ : ∃ (r : Fin 2000) (k : Fin 300), j = ix2 r k := ⟨j 0, j 1, eq_ix2 (n0 := 2000) (n1 := 300) j⟩
  obtain ⟨a0, a1, b0, b1, w0, w1, o0, o1⟩ := idx_facts t
  have ht : t.val < 100 := lt_of_lt_of_eq t.isLt N_2
  have hR : t.val * 2000 + r.val < 200000 := by have := r.isLt; omega
  have eo : ((cfg2.win 3).blk t).view.emb (ix2 r k) = (ix2 ⟨t.val * 2000 + r.val, hR⟩ k : S200000x300.Idx) := by
    funext a; apply Fin.ext
    match a with
    | ⟨0, _⟩ => show win2_3.index t (0 : Fin 2) * 2000 + 1 * r.val = t.val * 2000 + r.val; omega
    | ⟨1, _⟩ => show win2_3.index t (1 : Fin 2) * 300 + 1 * k.val = k.val; omega
  show k2_pay1 (iblk2 V c 1 t) (iblk2 V c 2 t) (iblk2 V c 0 t) (ix2 r k)
    = G h0 (V c main_v0_0) (V c main_v47) (V c main_arg7) (((cfg2.win 3).blk t).view.emb (ix2 r k))
  rw [eo]
  refine block_apply h0 _ _ _ _ _ _ r k ⟨_, hR⟩ (fun j => ?_) ?_ (fun j => ?_)
  · show V c main_v47 (((cfg2.win 1).blk t).view.emb (ix2 r j)) = V c main_v47 (ix2 ⟨t.val * 2000 + r.val, hR⟩ j)
    refine congrArg (V c main_v47) ?_
    funext a; apply Fin.ext
    match a with
    | ⟨0, _⟩ => show win2_1.index t (0 : Fin 2) * 2000 + 1 * r.val = t.val * 2000 + r.val; omega
    | ⟨1, _⟩ => show win2_1.index t (1 : Fin 2) * 300 + 1 * j.val = j.val; omega
  · show V c main_v0_0 (((cfg2.win 0).blk t).view.emb (ix2 r k)) = V c main_v0_0 (ix2 ⟨t.val * 2000 + r.val, hR⟩ k)
    refine congrArg (V c main_v0_0) ?_
    funext a; apply Fin.ext
    match a with
    | ⟨0, _⟩ => show win2_0.index t (0 : Fin 2) * 2000 + 1 * r.val = t.val * 2000 + r.val; omega
    | ⟨1, _⟩ => show win2_0.index t (1 : Fin 2) * 300 + 1 * k.val = k.val; omega
  · show V c main_arg7 (((cfg2.win 2).blk t).view.emb (ix2 j k)) = V c main_arg7 (ix2 j k)
    refine congrArg (V c main_arg7) ?_
    funext a; apply Fin.ext
    match a with
    | ⟨0, _⟩ => show win2_2.index t (0 : Fin 2) * 300 + 1 * j.val = j.val; omega
    | ⟨1, _⟩ => show win2_2.index t (1 : Fin 2) * 300 + 1 * k.val = k.val; omega

/-- An index of the array is in point `t`'s block iff each coordinate is in the block's range on its axis. -/
theorem mem_blk (t : Fin cfg2.N) (i : S200000x300.Idx) :
    i ∈ ((cfg2.win 3).blk t).view.set ↔ ∀ a : Fin 2, win2_3.index t a * S2000x300.size a ≤ (i a).val ∧ (i a).val < win2_3.index t a * S2000x300.size a + S2000x300.size a := by
  show i ∈ ((View.whole main_v48).slice (win2_3.rect t)).set ↔ _
  rw [View.set_slice_whole, Rect.mem_set_unit]
  exact Iff.rfl

/-- Every index of the array is in some point's block: row `r` is in the block of point `r / 2000`. -/
theorem cover (i : S200000x300.Idx) :
    ∃ t : Fin cfg2.N, (cfg2.win 3).flush t = true ∧ i ∈ ((cfg2.win 3).blk t).view.set := by
  have hi0 : (i 0).val < 200000 := (i 0).isLt
  have hi1 : (i 1).val < 300 := (i 1).isLt
  have hN : cfg2.N = 100 := N_2
  let t : Fin cfg2.N := ⟨(i 0).val / 2000, by rw [hN]; omega⟩
  obtain ⟨-, -, -, -, -, -, o0, o1⟩ := idx_facts t
  have o0' : win2_3.index t (0 : Fin 2) = (i 0).val / 2000 := o0
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 300 ≤ (i 1).val ∧ (i 1).val < win2_3.index t (1 : Fin 2) * 300 + 300; omega

/-- The array the region leaves, for any entry contents: the whole-array term of the arrays it reads. -/
theorem out_eq (c : Dev nD) (h0 : S_.BroadcastsInDim S200000x300 (![] : Fin S_.rank → Fin S200000x300.rank)) :
    (dat2 (F := Ideal) V c).arrAt 3 cfg2.N
      = maximumf (addf (V c main_v0_0) (Host.dotGeneral (F := Ideal) (φ₁ := .f32) (φ₂ := .f32) (DotDims.plain 200000 300 300) none
              (V c main_v47) (V c main_arg7)))
          (broadcastInDim S200000x300 ![] h0 (constant (F := Ideal) S_ .f32 0x00000000#32)) :=
  (dat2 (F := Ideal) V c).arrAt_eq_of_cover 3 (G h0 (V c main_v0_0) (V c main_v47) (V c main_arg7))
    (fun t _ => flushed_eq V c h0 t) cover

end Cert.KernelIdeal.Region2

end
-- ==== Proof.Region3.lean ====
/-
  The atom-output layer, from blocks of rows to the whole array.

  The region reads two arrays with 100000 rows — one of 133 columns, one of 300 — a 433 × 300 matrix and a 1 × 300
  bias row, and leaves a 100000 × 300 array. It works on 50 blocks of 2000 consecutive rows: on a block it sets the two
  row blocks side by side (433 columns), multiplies by the matrix, adds the bias row to every row and floors the result at
  zero. Entry (r, k) of that result is

      max (Σ j < 433, cat (r, j) · w (j, k) + β (0, k), 0),     cat (r, j) = a (r, j) if j < 133, b (r, j − 133) otherwise,

  and it reads row r of the two row arrays only. So the same formula on the whole arrays, read at row 2000 t + r, is
  what block t computes at its row r; the blocks tile the rows, hence the array the region leaves is the layer on
  the whole arrays, whatever the arrays held when the region was entered. On the extended reals a change of float
  format and a cast to the same shape are identities, and a product accumulated into zero is the plain finite sum,
  which is also what the general dot product of the whole arrays is.
-/
import proofs.«149245_j78967268704276_1_alg».proof.Proof.Gen.KernelIdeal.Frame
import proofs.«149245_j78967268704276_1_alg».proof.Proof.LibDenseRows
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Rows set side by side, and one dense layer on them

Every array here has its rows as the first axis. The layer joins row `r` of a `[R, 133]` array and row `r` of a
`[R, 300]` array into one row of length 433, multiplies it into a `[433, 300]` matrix, adds a `[1, 300]` bias row and
floors the result at zero. Entry `(r, k)` of the result reads row `r` of the two row arrays and nothing else of them. -/

/-- Entry `(r, j)` of two arrays with the same rows set side by side: the first array's entry for `j < 133`, the
    second's at `j - 133` from there on. -/
def cat {R : ℕ} (a : (⟨2, ![R, 133]⟩ : Shape).Idx → EReal) (b : (⟨2, ![R, 300]⟩ : Shape).Idx → EReal)
    (r : Fin R) (j : Fin 433) : EReal :=
  if h : j.val < 133 then a (ix2 r ⟨j.val, h⟩) else b (ix2 r ⟨j.val - 133, by have := j.isLt; omega⟩)

/-- Entry `(r, k)` of the layer: `max (Σ j, cat (r, j) · w (j, k) + β (0, k), 0)`. -/
def layer {R : ℕ} (a : (⟨2, ![R, 133]⟩ : Shape).Idx → EReal) (b : (⟨2, ![R, 300]⟩ : Shape).Idx → EReal)
    (w : (⟨2, ![433, 300]⟩ : Shape).Idx → EReal) (β : (⟨2, ![1, 300]⟩ : Shape).Idx → EReal) (r : Fin R) (k : Fin 300) : EReal :=
  max ((∑ j : Fin 433, cat a b r j * w (ix2 j k)) + β (ix2 (0 : Fin 1) k)) 0

/-- A concatenation along the second axis of a `[R, 133]` and a `[R, 300]` array, read at `(r, j)`, is the
    side-by-side entry: left of column 133 the first piece at the same index, from there on the second piece with the
    column moved back by 133. -/
theorem concatenate_apply {R : ℕ} (a : (⟨2, ![R, 133]⟩ : Shape).Idx → EReal) (b : (⟨2, ![R, 300]⟩ : Shape).Idx → EReal)
    (h : Shape.Concatenates [(⟨2, ![R, 133]⟩ : Shape), (⟨2, ![R, 300]⟩ : Shape)] (⟨2, ![R, 433]⟩ : Shape) 1)
    (r : Fin R) (j : Fin 433) :
    concatenate (⟨2, ![R, 433]⟩ : Shape) 1 [⟨(⟨2, ![R, 133]⟩ : Shape), a⟩, ⟨(⟨2, ![R, 300]⟩ : Shape), b⟩] h (ix2 r j) = cat a b r j := by
  unfold cat
  split
  · next hj =>
    exact concatenate_pair_apply_left 1 a b h (ix2 r j) rfl (ix2 r ⟨j.val, hj⟩) (fun ax => by
      match ax with
      | ⟨0, _⟩ => rfl
      | ⟨1, _⟩ => rfl)
  · next hj =>
    exact concatenate_pair_apply_right 1 a b h (ix2 r j) rfl rfl (ix2 r ⟨j.val - 133, by have := j.isLt; omega⟩) (fun ax hax => by
      match ax with
      | ⟨0, _⟩ => rfl
      | ⟨1, _⟩ => exact absurd rfl hax)
      (by show (j.val - 133) + 133 = j.val; omega)

/-! ## The block's payload at an index -/

/-- The dimension record of the block's product is the plain one: contract the left operand's last axis with
    the right operand's first, no batch axis. -/
theorem dims_eq : dot_S2000x433_S433x300_S2000x300_1_0_0_1_n_n = DotDims.plain 2000 433 300 := rfl

/-- Entry `(r, k)` of the payload on a block of 2000 rows is the layer's entry on that block: the change of float
    format and the same-shape casts are identities, the product into the zero accumulator is the plain sum over the 433
    joined columns, the bias row is read at column `k` whatever the row, and the rectifier's threshold is zero. -/
theorem pay_apply (x0 : Vec Ideal S2000x133 .f32) (x1 : Vec Ideal S2000x300 .f32) (x2 : Vec Ideal S433x300 .f32)
    (x3 : Vec Ideal S1x300 .f32) (r : Fin 2000) (k : Fin 300) :
    k3_pay1 x0 x1 x2 x3 (ix2 r k) = layer x0 x1 x2 x3 r k := by
  unfold k3_pay1
  rw [dims_eq, shapeCast_self, shapeCast_self]
  show max (FloatOps.matmul (DotDims.plain 2000 433 300) none
        (concatenate S2000x433 1 [⟨S2000x133, x0⟩, ⟨S2000x300, x1⟩] concatenates_S2000x133_S2000x300_S2000x433_d1)
        x2 (constant (F := Ideal) S2000x300 .f32 0x00000000#32) (ix2 r k)
      + broadcastTo S2000x300 x3 broadcasts_S1x300_S2000x300 (ix2 r k)) (Ideal.ofBits .f32 0x00000000#32) = _
  rw [Ideal.matmul_constant_zero_apply, Cert.DenseRows.plain_contr_sum, broadcastTo_1b_ab_apply, Ideal.ofBits_zero_f32]
  unfold layer
  simp only [concatenate_apply]

/-! ## The whole-array term at an index -/

/-- Entry `(r, k)` of the layer written on whole arrays — a general dot product of the joined arrays with the matrix,
    plus the bias row broadcast over the rows, floored at the zero scalar broadcast everywhere — is the layer's entry
    on the whole arrays: the dot product is the same plain sum, and both broadcasts read their operand at a fixed place. -/
theorem host_apply (A0 : FVec Ideal S100000x133 .f32) (A1 : FVec Ideal S100000x300 .f32) (W : FVec Ideal S433x300 .f32)
    (B : FVec Ideal S1x300 .f32)
    (h0 : S_.BroadcastsInDim S100000x300 (![] : Fin S_.rank → Fin S100000x300.rank))
    (h2 : S1x300.BroadcastsInDim S100000x300 (![0, 1] : Fin S1x300.rank → Fin S100000x300.rank))
    (hcat : Shape.Concatenates [S100000x133, S100000x300] (⟨2, ![100000, 433]⟩ : Shape) 1)
    (r : Fin 100000) (k : Fin 300) :
    maximumf (addf (Host.dotGeneral (F := Ideal) (φ₁ := .f32) (φ₂ := .f32) (DotDims.plain 100000 433 300) none
              (concatenate (⟨2, ![100000, 433]⟩ : Shape) 1 [⟨S100000x133, A0⟩, ⟨S100000x300, A1⟩] hcat) W)
            (broadcastInDim S100000x300 ![0, 1] h2 B))
          (broadcastInDim S100000x300 ![] h0 (constant (F := Ideal) S_ .f32 0x00000000#32)) (ix2 r k)
      = layer A0 A1 W B r k := by
  show max (FloatOps.dotGeneral (DotDims.plain 100000 433 300) none .single
          (concatenate (⟨2, ![100000, 433]⟩ : Shape) 1 [⟨S100000x133, A0⟩, ⟨S100000x300, A1⟩] hcat) W (ix2 r k)
        + broadcastInDim S100000x300 ![0, 1] h2 B (ix2 r k))
      (broadcastInDim S100000x300 ![] h0 (constant (F := Ideal) S_ .f32 0x00000000#32) (ix2 r k)) = _
  rw [Ideal.dotGeneral_apply, Cert.DenseRows.plain_contr_sum, Cert.DenseRows.splat_apply,
    broadcastInDim_apply ![0, 1] h2 B (ix2 r k) (ix2 (0 : Fin 1) k) (fun ax => by
      match ax with
      | ⟨0, _⟩ => rfl
      | ⟨1, _⟩ => rfl)]
  show max _ (Ideal.ofBits .f32 0x00000000#32) = _
  rw [Ideal.ofBits_zero_f32]
  unfold layer
  simp only [concatenate_apply]

/-! ## From a block of rows to the whole array -/

/-- The layer's entry `(r, k)` reads row `r` of the two row arrays only: two pairs of arrays that agree on a row
    of each give the same entry there. -/
theorem layer_congr {R R' : ℕ} (a : (⟨2, ![R, 133]⟩ : Shape).Idx → EReal) (b : (⟨2, ![R, 300]⟩ : Shape).Idx → EReal)
    (a' : (⟨2, ![R', 133]⟩ : Shape).Idx → EReal) (b' : (⟨2, ![R', 300]⟩ : Shape).Idx → EReal)
    (w : (⟨2, ![433, 300]⟩ : Shape).Idx → EReal) (β : (⟨2, ![1, 300]⟩ : Shape).Idx → EReal) (r : Fin R) (r' : Fin R')
    (ha : ∀ j : Fin 133, a (ix2 r j) = a' (ix2 r' j)) (hb : ∀ j : Fin 300, b (ix2 r j) = b' (ix2 r' j)) (k : Fin 300) :
    layer a b w β r k = layer a' b' w β r' k := by
  have hc : ∀ j : Fin 433, cat a b r j = cat a' b' r' j := fun j => by
    unfold cat
    split
    · exact ha _
    · exact hb _
  unfold layer
  simp only [hc]

/-- Block `q` of the rows: when the first two loaded blocks are rows `[2000 q, 2000 q + 2000)` of two arrays and the
    other two are the whole matrix and the whole bias row, entry `(r, k)` of the payload is the layer's entry
    `(2000 q + r, k)` on the whole arrays. -/
theorem pay_block (A0 : FVec Ideal S100000x133 .f32) (A1 : FVec Ideal S100000x300 .f32) (W : FVec Ideal S433x300 .f32)
    (B : FVec Ideal S1x300 .f32)
    (x0 : Vec Ideal S2000x133 .f32) (x1 : Vec Ideal S2000x300 .f32) (x2 : Vec Ideal S433x300 .f32) (x3 : Vec Ideal S1x300 .f32)
    (r : Fin 2000) (r' : Fin 100000)
    (e0 : ∀ j : Fin 133, x0 (ix2 r j) = A0 (ix2 r' j)) (e1 : ∀ j : Fin 300, x1 (ix2 r j) = A1 (ix2 r' j))
    (e2 : x2 = W) (e3 : x3 = B) (k : Fin 300) :
    k3_pay1 x0 x1 x2 x3 (ix2 r k) = layer A0 A1 W B r' k := by
  subst e2 e3
  rw [pay_apply]
  exact layer_congr x0 x1 A0 A1 x2 x3 r r' e0 e1 k

/-- The zero offsets of a whole-block access, as the constant function. -/
theorem hz : (![0, 0] : Fin 2 → Nat) = fun _ => 0 := funext fun a => by fin_cases a <;> rfl

/-- The windows' index maps, evaluated once over the 50 grid points: the three row-tiled windows are at block `t` of
    the rows and block 0 of the columns, the matrix and the bias row at block `(0, 0)` throughout. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The layer on the arrays the region reads, as it finds them: what the output array ends holding. -/
def G (c : Dev nD) : S100000x300.Idx → EReal :=
  fun i => layer (V c main_arg0) (V c main_v56) (V c main_arg8) (V c main_v57) (i 0) (i 1)

/-- What point `t` writes back is block `t` of `G`: the body's one store leaves the payload of the four loaded blocks;
    the first two are rows `[2000 t, 2000 t + 2000)` of their arrays, the other two the whole matrix and bias row, so the
    payload's entry `(r, k)` is the layer's entry `(2000 t + r, k)`, which is where the output's block `t` puts it. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz]
  simp only [View.ld_unit_zero (S := S2000x133) hz, View.ld_unit_zero (S := S2000x300) hz,
    View.ld_unit_zero (S := S433x300) hz, View.ld_unit_zero (S := S1x300) hz]
  obtain ⟨a0, a1, b0, b1, w0, w1, s0, s1, o0, o1⟩ := idx_facts t
  have ht : t.val < 50 := lt_of_lt_of_eq t.isLt N_3
  refine funext fun (j : S2000x300.Idx) => ?_
  obtain ⟨r, k, rfl⟩ : ∃ (r : Fin 2000) (k : Fin 300), j = ix2 r k := ⟨j 0, j 1, eq_ix2 j⟩
  have hr : t.val * 2000 + r.val < 100000 := by have := r.isLt; omega
  show k3_pay1 (iblk3 V c 0 t) (iblk3 V c 1 t) (iblk3 V c 2 t) (iblk3 V c 3 t) (ix2 r k)
      = G V c (((cfg3.win 4).blk t).view.emb (ix2 r k))
  -- the output's block `t` puts its entry `(r, k)` at `(2000 t + r, k)` of the array
  have e4 : ((cfg3.win 4).blk t).view.emb (ix2 r k) = ix2 (⟨t.val * 2000 + r.val, hr⟩ : Fin 100000) k := by
    funext a; apply Fin.ext
    match a with
    | ⟨0, _⟩ => show win3_4.index t (0 : Fin 2) * 2000 + 1 * r.val = t.val * 2000 + r.val; omega
    | ⟨1, _⟩ => show win3_4.index t (1 : Fin 2) * 300 + 1 * k.val = k.val; omega
  rw [e4]
  show _ = layer (V c main_arg0) (V c main_v56) (V c main_arg8) (V c main_v57) (⟨t.val * 2000 + r.val, hr⟩ : Fin 100000) k
  refine pay_block (V c main_arg0) (V c main_v56) (V c main_arg8) (V c main_v57)
    (iblk3 V c 0 t) (iblk3 V c 1 t) (iblk3 V c 2 t) (iblk3 V c 3 t) r ⟨t.val * 2000 + r.val, hr⟩ ?_ ?_ ?_ ?_ k
  · -- the first row array's block `t` holds rows `[2000 t, 2000 t + 2000)`, all 133 columns
    intro j
    show V c main_arg0 (((cfg3.win 0).blk t).view.emb (ix2 r j)) = V c main_arg0 (ix2 (⟨t.val * 2000 + r.val, hr⟩ : Fin 100000) j)
    congr 1; funext a; apply Fin.ext
    match a with
    | ⟨0, _⟩ => show win3_0.index t (0 : Fin 2) * 2000 + 1 * r.val = t.val * 2000 + r.val; omega
    | ⟨1, _⟩ => show win3_0.index t (1 : Fin 2) * 133 + 1 * j.val = j.val; omega
  · -- the second row array's block `t` holds the same rows, all 300 columns
    intro j
    show V c main_v56 (((cfg3.win 1).blk t).view.emb (ix2 r j)) = V c main_v56 (ix2 (⟨t.val * 2000 + r.val, hr⟩ : Fin 100000) j)
    congr 1; funext a; apply Fin.ext
    match a with
    | ⟨0, _⟩ => show win3_1.index t (0 : Fin 2) * 2000 + 1 * r.val = t.val * 2000 + r.val; omega
    | ⟨1, _⟩ => show win3_1.index t (1 : Fin 2) * 300 + 1 * j.val = j.val; omega
  · -- the matrix's one block is the whole matrix
    funext y
    show V c main_arg8 (((cfg3.win 2).blk t).view.emb y) = V c main_arg8 y
    congr 1; funext a; apply Fin.ext
    match a with
    | ⟨0, _⟩ => show win3_2.index t (0 : Fin 2) * 433 + 1 * (y 0).val = (y 0).val; omega
    | ⟨1, _⟩ => show win3_2.index t (1 : Fin 2) * 300 + 1 * (y 1).val = (y 1).val; omega
  · -- the bias row's one block is the whole row
    funext y
    show V c main_v57 (((cfg3.win 3).blk t).view.emb y) = V c main_v57 y
    congr 1; funext a; apply Fin.ext
    match a with
    | ⟨0, _⟩ => show win3_3.index t (0 : Fin 2) * 1 + 1 * (y 0).val = (y 0).val; omega
    | ⟨1, _⟩ => show win3_3.index t (1 : Fin 2) * 300 + 1 * (y 1).val = (y 1).val; omega

/-- An index of the array is in point `t`'s block iff each coordinate is in the block's range on its axis. -/
theorem mem_blk (t : Fin cfg3.N) (i : S100000x300.Idx) :
    i ∈ ((cfg3.win 4).blk t).view.set ↔ ∀ a : Fin 2, win3_4.index t a * S2000x300.size a ≤ (i a).val
      ∧ (i a).val < win3_4.index t a * S2000x300.size a + S2000x300.size a := by
  show i ∈ ((View.whole main_v58).slice (win3_4.rect t)).set ↔ _
  rw [View.set_slice_whole, Rect.mem_set_unit]
  exact Iff.rfl

/-- The 50 blocks of 2000 rows tile the 100000 rows: the index `(ρ, k)` is in the block of the point `ρ / 2000`,
    which writes back like every point. -/
theorem cover (i : S100000x300.Idx) :
    ∃ t : Fin cfg3.N, (cfg3.win 4).flush t = true ∧ i ∈ ((cfg3.win 4).blk t).view.set := by
  have hi0 : (i 0).val < 100000 := (i 0).isLt
  have hi1 : (i 1).val < 300 := (i 1).isLt
  have hN : cfg3.N = 50 := N_3
  let t : Fin cfg3.N := ⟨(i 0).val / 2000, by rw [hN]; omega⟩
  obtain ⟨-, -, -, -, -, -, -, -, o0, o1⟩ := idx_facts t
  have ht : t.val = (i 0).val / 2000 := rfl
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 300 ≤ (i 1).val ∧ (i 1).val < win3_4.index t (1 : Fin 2) * 300 + 300
    omega

/-- The array the region leaves is the layer on the arrays it reads, whatever they held on entry: every point writes
    back its block of `G`, and the blocks cover the array. -/
theorem arr_eq (c : Dev nD) : (dat3 (F := Ideal) V c).arrAt 4 cfg3.N = G V c :=
  (dat3 (F := Ideal) V c).arrAt_eq_of_cover 4 (G V c) (fun t _ => flushed_eq V c t) cover

/-- The array the region leaves, as the whole-array term of the arrays it reads: the two row arrays joined along the
    columns, times the matrix, plus the bias row broadcast over the rows, floored at zero. Both sides are the layer's
    entry at every index. -/
theorem out_eq (c : Dev nD) (h0 : S_.BroadcastsInDim S100000x300 (![] : Fin S_.rank → Fin S100000x300.rank))
    (h2 : S1x300.BroadcastsInDim S100000x300 (![0, 1] : Fin S1x300.rank → Fin S100000x300.rank))
    (hcat : Shape.Concatenates [S100000x133, S100000x300] (⟨2, ![100000, 433]⟩ : Shape) 1) :
    (dat3 (F := Ideal) V c).arrAt 4 cfg3.N
      = maximumf (addf (Host.dotGeneral (F := Ideal) (φ₁ := .f32) (φ₂ := .f32) (DotDims.plain 100000 433 300) none
              (concatenate (⟨2, ![100000, 433]⟩ : Shape) 1 [⟨S100000x133, V c main_arg0⟩, ⟨S100000x300, V c main_v56⟩] hcat) (V c main_arg8))
            (broadcastInDim S100000x300 ![0, 1] h2 (V c main_v57)))
          (broadcastInDim S100000x300 ![] h0 (constant (F := Ideal) S_ .f32 0x00000000#32)) := by
  rw [arr_eq]
  refine funext fun (i : S100000x300.Idx) => ?_
  obtain ⟨r, k, rfl⟩ : ∃ (r : Fin 100000) (k : Fin 300), i = ix2 r k := ⟨i 0, i 1, eq_ix2 i⟩
  exact (host_apply (V c main_arg0) (V c main_v56) (V c main_arg8) (V c main_v57) h0 h2 hcat r k).symm

end Cert.KernelIdeal.Region3

end
-- ==== Proof.KHost.lean ====
/-
  The idealized kernel program's result, as the network of its arguments.

  The program is four tiled dense layers (kernel regions) among stretches of host operations — the gathers, sums and
  scatters of the message passing. The contents of its buffers at each boundary are a fold through the program; here the
  fold is read buffer by buffer: an argument no segment writes keeps its launch contents through every boundary; each host
  stretch's result is the same host operations the reference applies, of the buffers it reads; each region's output
  array is its dense layer of the arrays it reads (proved per region, for any entry contents). Composed, the result
  buffer holds the network `Spec.net` of the ten arguments.
-/
import proofs.«149245_j78967268704276_1_alg».proof.Proof.Gen.KernelIdeal.Frame
import proofs.«149245_j78967268704276_1_alg».proof.Proof.Spec
import proofs.«149245_j78967268704276_1_alg».proof.Proof.Region0
import proofs.«149245_j78967268704276_1_alg».proof.Proof.Region1
import proofs.«149245_j78967268704276_1_alg».proof.Proof.Region2
import proofs.«149245_j78967268704276_1_alg».proof.Proof.Region3
import Idealize.ShloMosaic.Lib.StableHlo.Run
import Idealize.ShloMosaic.Lib.ValueLayout
import Idealize.ShloMosaic.Lib.ValueIdx

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.ValueIdx

variable (m : (ℓ : Loc nD τ sig) → Buf (Elt Ideal) ℓ) (ρ : Dev nD → PrngReg) (c : Dev nD)

/-- A host stretch leaves a buffer none of its operations writes as it found it. -/
macro "host_skip" : tactic => `(tactic|
  (refine StableHlo.after_of_forall_not_mem _ _ (List.forall_iff_forall_mem.mp ?_)
   simp only [hostOps1, hostOps2, hostOps3, hostOps4, hostOps4_1, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## Buffers that pass through -/

theorem w1_arg2 : W1 m ρ c (Proc.devRef .tc main_arg2) = m ((c : Thread nD τ).loc main_arg2) :=
  W1_of_ne m ρ c main_arg2 (by decide)
theorem w2_arg2 : W2 m ρ c (Proc.devRef .tc main_arg2) = m ((c : Thread nD τ).loc main_arg2) :=
  (show W2 m ρ c (Proc.devRef .tc main_arg2) = W1 m ρ c (Proc.devRef .tc main_arg2) by host_skip).trans (w1_arg2 m ρ c)
theorem w3_arg2 : W3 m ρ c (Proc.devRef .tc main_arg2) = m ((c : Thread nD τ).loc main_arg2) :=
  (W3_of_ne m ρ c main_arg2 (by decide)).trans (w2_arg2 m ρ c)
theorem w4_arg2 : W4 m ρ c (Proc.devRef .tc main_arg2) = m ((c : Thread nD τ).loc main_arg2) :=
  (show W4 m ρ c (Proc.devRef .tc main_arg2) = W3 m ρ c (Proc.devRef .tc main_arg2) by host_skip).trans (w3_arg2 m ρ c)
theorem w5_arg2 : W5 m ρ c (Proc.devRef .tc main_arg2) = m ((c : Thread nD τ).loc main_arg2) :=
  (W5_of_ne m ρ c main_arg2 (by decide)).trans (w4_arg2 m ρ c)
theorem w1_arg3 : W1 m ρ c (Proc.devRef .tc main_arg3) = m ((c : Thread nD τ).loc main_arg3) :=
  W1_of_ne m ρ c main_arg3 (by decide)
theorem w2_arg3 : W2 m ρ c (Proc.devRef .tc main_arg3) = m ((c : Thread nD τ).loc main_arg3) :=
  (show W2 m ρ c (Proc.devRef .tc main_arg3) = W1 m ρ c (Proc.devRef .tc main_arg3) by host_skip).trans (w1_arg3 m ρ c)
theorem w3_arg3 : W3 m ρ c (Proc.devRef .tc main_arg3) = m ((c : Thread nD τ).loc main_arg3) :=
  (W3_of_ne m ρ c main_arg3 (by decide)).trans (w2_arg3 m ρ c)
theorem w1_arg4 : W1 m ρ c (Proc.devRef .tc main_arg4) = m ((c : Thread nD τ).loc main_arg4) :=
  W1_of_ne m ρ c main_arg4 (by decide)
theorem w2_arg4 : W2 m ρ c (Proc.devRef .tc main_arg4) = m ((c : Thread nD τ).loc main_arg4) :=
  (show W2 m ρ c (Proc.devRef .tc main_arg4) = W1 m ρ c (Proc.devRef .tc main_arg4) by host_skip).trans (w1_arg4 m ρ c)
theorem w3_arg4 : W3 m ρ c (Proc.devRef .tc main_arg4) = m ((c : Thread nD τ).loc main_arg4) :=
  (W3_of_ne m ρ c main_arg4 (by decide)).trans (w2_arg4 m ρ c)
theorem w1_arg7 : W1 m ρ c (Proc.devRef .tc main_arg7) = m ((c : Thread nD τ).loc main_arg7) :=
  W1_of_ne m ρ c main_arg7 (by decide)
theorem w2_arg7 : W2 m ρ c (Proc.devRef .tc main_arg7) = m ((c : Thread nD τ).loc main_arg7) :=
  (show W2 m ρ c (Proc.devRef .tc main_arg7) = W1 m ρ c (Proc.devRef .tc main_arg7) by host_skip).trans (w1_arg7 m ρ c)
theorem w3_arg7 : W3 m ρ c (Proc.devRef .tc main_arg7) = m ((c : Thread nD τ).loc main_arg7) :=
  ((W3_arr m ρ c 2).trans (((dat1 (V2 m ρ) c).arrAt_in 2 rfl _).trans (A_eq1 (V2 m ρ) c 2))).trans (w2_arg7 m ρ c)
theorem w4_arg7 : W4 m ρ c (Proc.devRef .tc main_arg7) = m ((c : Thread nD τ).loc main_arg7) :=
  (show W4 m ρ c (Proc.devRef .tc main_arg7) = W3 m ρ c (Proc.devRef .tc main_arg7) by host_skip).trans (w3_arg7 m ρ c)
theorem w1_arg0 : W1 m ρ c (Proc.devRef .tc main_arg0) = m ((c : Thread nD τ).loc main_arg0) :=
  W1_of_ne m ρ c main_arg0 (by decide)
theorem w2_arg0 : W2 m ρ c (Proc.devRef .tc main_arg0) = m ((c : Thread nD τ).loc main_arg0) :=
  (show W2 m ρ c (Proc.devRef .tc main_arg0) = W1 m ρ c (Proc.devRef .tc main_arg0) by host_skip).trans (w1_arg0 m ρ c)
theorem w3_arg0 : W3 m ρ c (Proc.devRef .tc main_arg0) = m ((c : Thread nD τ).loc main_arg0) :=
  (W3_of_ne m ρ c main_arg0 (by decide)).trans (w2_arg0 m ρ c)
theorem w4_arg0 : W4 m ρ c (Proc.devRef .tc main_arg0) = m ((c : Thread nD τ).loc main_arg0) :=
  (show W4 m ρ c (Proc.devRef .tc main_arg0) = W3 m ρ c (Proc.devRef .tc main_arg0) by host_skip).trans (w3_arg0 m ρ c)
theorem w5_arg0 : W5 m ρ c (Proc.devRef .tc main_arg0) = m ((c : Thread nD τ).loc main_arg0) :=
  (W5_of_ne m ρ c main_arg0 (by decide)).trans (w4_arg0 m ρ c)
theorem w6_arg0 : W6 m ρ c (Proc.devRef .tc main_arg0) = m ((c : Thread nD τ).loc main_arg0) :=
  (show W6 m ρ c (Proc.devRef .tc main_arg0) = W5 m ρ c (Proc.devRef .tc main_arg0) by host_skip).trans (w5_arg0 m ρ c)
theorem w1_arg8 : W1 m ρ c (Proc.devRef .tc main_arg8) = m ((c : Thread nD τ).loc main_arg8) :=
  W1_of_ne m ρ c main_arg8 (by decide)
theorem w2_arg8 : W2 m ρ c (Proc.devRef .tc main_arg8) = m ((c : Thread nD τ).loc main_arg8) :=
  (show W2 m ρ c (Proc.devRef .tc main_arg8) = W1 m ρ c (Proc.devRef .tc main_arg8) by host_skip).trans (w1_arg8 m ρ c)
theorem w3_arg8 : W3 m ρ c (Proc.devRef .tc main_arg8) = m ((c : Thread nD τ).loc main_arg8) :=
  (W3_of_ne m ρ c main_arg8 (by decide)).trans (w2_arg8 m ρ c)
theorem w4_arg8 : W4 m ρ c (Proc.devRef .tc main_arg8) = m ((c : Thread nD τ).loc main_arg8) :=
  (show W4 m ρ c (Proc.devRef .tc main_arg8) = W3 m ρ c (Proc.devRef .tc main_arg8) by host_skip).trans (w3_arg8 m ρ c)
theorem w5_arg8 : W5 m ρ c (Proc.devRef .tc main_arg8) = m ((c : Thread nD τ).loc main_arg8) :=
  (W5_of_ne m ρ c main_arg8 (by decide)).trans (w4_arg8 m ρ c)
theorem w6_arg8 : W6 m ρ c (Proc.devRef .tc main_arg8) = m ((c : Thread nD τ).loc main_arg8) :=
  (show W6 m ρ c (Proc.devRef .tc main_arg8) = W5 m ρ c (Proc.devRef .tc main_arg8) by host_skip).trans (w5_arg8 m ρ c)
theorem w1_arg9 : W1 m ρ c (Proc.devRef .tc main_arg9) = m ((c : Thread nD τ).loc main_arg9) :=
  W1_of_ne m ρ c main_arg9 (by decide)
theorem w2_arg9 : W2 m ρ c (Proc.devRef .tc main_arg9) = m ((c : Thread nD τ).loc main_arg9) :=
  (show W2 m ρ c (Proc.devRef .tc main_arg9) = W1 m ρ c (Proc.devRef .tc main_arg9) by host_skip).trans (w1_arg9 m ρ c)
theorem w3_arg9 : W3 m ρ c (Proc.devRef .tc main_arg9) = m ((c : Thread nD τ).loc main_arg9) :=
  (W3_of_ne m ρ c main_arg9 (by decide)).trans (w2_arg9 m ρ c)
theorem w4_arg9 : W4 m ρ c (Proc.devRef .tc main_arg9) = m ((c : Thread nD τ).loc main_arg9) :=
  (show W4 m ρ c (Proc.devRef .tc main_arg9) = W3 m ρ c (Proc.devRef .tc main_arg9) by host_skip).trans (w3_arg9 m ρ c)
theorem w5_arg9 : W5 m ρ c (Proc.devRef .tc main_arg9) = m ((c : Thread nD τ).loc main_arg9) :=
  (W5_of_ne m ρ c main_arg9 (by decide)).trans (w4_arg9 m ρ c)
theorem w1_arg5 : W1 m ρ c (Proc.devRef .tc main_arg5) = m ((c : Thread nD τ).loc main_arg5) :=
  W1_of_ne m ρ c main_arg5 (by decide)
theorem w2_arg5 : W2 m ρ c (Proc.devRef .tc main_arg5) = m ((c : Thread nD τ).loc main_arg5) :=
  (show W2 m ρ c (Proc.devRef .tc main_arg5) = W1 m ρ c (Proc.devRef .tc main_arg5) by host_skip).trans (w1_arg5 m ρ c)
theorem w3_arg5 : W3 m ρ c (Proc.devRef .tc main_arg5) = m ((c : Thread nD τ).loc main_arg5) :=
  (W3_of_ne m ρ c main_arg5 (by decide)).trans (w2_arg5 m ρ c)
theorem w4_arg5 : W4 m ρ c (Proc.devRef .tc main_arg5) = m ((c : Thread nD τ).loc main_arg5) :=
  (show W4 m ρ c (Proc.devRef .tc main_arg5) = W3 m ρ c (Proc.devRef .tc main_arg5) by host_skip).trans (w3_arg5 m ρ c)
theorem w5_arg5 : W5 m ρ c (Proc.devRef .tc main_arg5) = m ((c : Thread nD τ).loc main_arg5) :=
  (W5_of_ne m ρ c main_arg5 (by decide)).trans (w4_arg5 m ρ c)
theorem w6_arg5 : W6 m ρ c (Proc.devRef .tc main_arg5) = m ((c : Thread nD τ).loc main_arg5) :=
  (show W6 m ρ c (Proc.devRef .tc main_arg5) = W5 m ρ c (Proc.devRef .tc main_arg5) by host_skip).trans (w5_arg5 m ρ c)
theorem w7_arg5 : W7 m ρ c (Proc.devRef .tc main_arg5) = m ((c : Thread nD τ).loc main_arg5) :=
  (W7_of_ne m ρ c main_arg5 (by decide)).trans (w6_arg5 m ρ c)

/-! ## The input layer (region 0) -/

/-- Region 0 leaves the pre-activation in its first output array. -/
theorem w1_pre : W1 m ρ c (Proc.devRef .tc main_v0_0) = Spec.pre (m ((c : Thread nD τ).loc main_arg1)) (m ((c : Thread nD τ).loc main_arg6)) :=
  (W1_arr m ρ c 2).trans ((Region0.pre_eq (V0 m ρ) c).trans rfl)

/-- Region 0 leaves the first message in its second output array. -/
theorem w1_msg : W1 m ρ c (Proc.devRef .tc main_v0_1) = Spec.msg1 (m ((c : Thread nD τ).loc main_arg1)) (m ((c : Thread nD τ).loc main_arg6)) :=
  (W1_arr m ρ c 3).trans ((Region0.msg_eq (V0 m ρ) c Cert.ReferenceIdeal.Facts₀.bcast_S_S200000x300).trans rfl)

/-! The pre-activation is read again by both hidden updates: it passes through the stretches and, as an input window, through region 1. -/
theorem w2_pre : W2 m ρ c (Proc.devRef .tc main_v0_0) = Spec.pre (m ((c : Thread nD τ).loc main_arg1)) (m ((c : Thread nD τ).loc main_arg6)) :=
  (show W2 m ρ c (Proc.devRef .tc main_v0_0) = W1 m ρ c (Proc.devRef .tc main_v0_0) by host_skip).trans (w1_pre m ρ c)
theorem w3_pre : W3 m ρ c (Proc.devRef .tc main_v0_0) = Spec.pre (m ((c : Thread nD τ).loc main_arg1)) (m ((c : Thread nD τ).loc main_arg6)) :=
  ((W3_arr m ρ c 0).trans (((dat1 (V2 m ρ) c).arrAt_in 0 rfl _).trans (A_eq1 (V2 m ρ) c 0))).trans (w2_pre m ρ c)
theorem w4_pre : W4 m ρ c (Proc.devRef .tc main_v0_0) = Spec.pre (m ((c : Thread nD τ).loc main_arg1)) (m ((c : Thread nD τ).loc main_arg6)) :=
  (show W4 m ρ c (Proc.devRef .tc main_v0_0) = W3 m ρ c (Proc.devRef .tc main_v0_0) by host_skip).trans (w3_pre m ρ c)

/-! ## The first round of message passing (host stretch 1, region 1) -/

set_option maxHeartbeats 16000000 in
/-- Stretch 1 computes the new message from region 0's message and the three tables. -/
theorem w2_mnew_raw : W2 m ρ c (Proc.devRef .tc main_v23)
    = Spec.mnew (W1 m ρ c (Proc.devRef .tc main_v0_1)) (W1 m ρ c (Proc.devRef .tc main_arg2)) (W1 m ρ c (Proc.devRef .tc main_arg3)) (W1 m ρ c (Proc.devRef .tc main_arg4)) := by
  show StableHlo.after hostOps1 (W1 m ρ c) (Proc.devRef .tc main_v23) = _
  after_results_simp <;> rfl

theorem w2_mnew : W2 m ρ c (Proc.devRef .tc main_v23)
    = Spec.mnew (Spec.msg1 (m ((c : Thread nD τ).loc main_arg1)) (m ((c : Thread nD τ).loc main_arg6))) (m ((c : Thread nD τ).loc main_arg2)) (m ((c : Thread nD τ).loc main_arg3)) (m ((c : Thread nD τ).loc main_arg4)) := by
  rw [w2_mnew_raw, w1_msg, w1_arg2, w1_arg3, w1_arg4]

/-- Region 1 leaves the second message. -/
theorem w3_msg : W3 m ρ c (Proc.devRef .tc main_v24)
    = Spec.step (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg7)) (Spec.msg1 (m ((c : Thread nD τ).loc main_arg1)) (m ((c : Thread nD τ).loc main_arg6))) := by
  refine (W3_arr m ρ c 3).trans ((Region1.out_eq (V2 m ρ) c Cert.ReferenceIdeal.Facts₀.bcast_S_S200000x300).trans ?_)
  rw [show V2 m ρ c main_v0_0 = _ from w2_pre m ρ c, show V2 m ρ c main_v23 = _ from w2_mnew m ρ c,
    show V2 m ρ c main_arg7 = _ from w2_arg7 m ρ c]
  rfl

/-! ## The second round (host stretch 2, region 2) -/

set_option maxHeartbeats 16000000 in
/-- Stretch 2 computes the next new message from region 1's message and the three tables. -/
theorem w4_mnew_raw : W4 m ρ c (Proc.devRef .tc main_v47)
    = Spec.mnew (W3 m ρ c (Proc.devRef .tc main_v24)) (W3 m ρ c (Proc.devRef .tc main_arg2)) (W3 m ρ c (Proc.devRef .tc main_arg3)) (W3 m ρ c (Proc.devRef .tc main_arg4)) := by
  show StableHlo.after hostOps2 (W3 m ρ c) (Proc.devRef .tc main_v47) = _
  after_results_simp <;> rfl

/-- Region 2 leaves the third message. -/
theorem w5_msg : W5 m ρ c (Proc.devRef .tc main_v48)
    = Spec.step (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg7))
        (Spec.step (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg7)) (Spec.msg1 (m ((c : Thread nD τ).loc main_arg1)) (m ((c : Thread nD τ).loc main_arg6)))) := by
  refine (W5_arr m ρ c 3).trans ((Region2.out_eq (V4 m ρ) c Cert.ReferenceIdeal.Facts₀.bcast_S_S200000x300).trans ?_)
  rw [show V4 m ρ c main_v0_0 = _ from w4_pre m ρ c, show V4 m ρ c main_arg7 = _ from w4_arg7 m ρ c,
    show V4 m ρ c main_v47 = _ from w4_mnew_raw m ρ c, w3_msg, w3_arg2, w3_arg3, w3_arg4]
  rfl

/-! ## The output layer (host stretch 3, region 3) -/

/-- Stretch 3 aggregates the third message over every atom's incoming bonds. -/
theorem w6_aggr_raw : W6 m ρ c (Proc.devRef .tc main_v56) = Spec.aggr (W5 m ρ c (Proc.devRef .tc main_v48)) (W5 m ρ c (Proc.devRef .tc main_arg2)) := by
  show StableHlo.after hostOps3 (W5 m ρ c) (Proc.devRef .tc main_v56) = _
  after_results_simp <;> rfl

/-- A vector laid out as one row is the vector broadcast along the lane axis. -/
theorem row_of_vec (bo : Spec.TF Cert.ReferenceIdeal.S300) (hc : Cert.ReferenceIdeal.S300.ShapeCasts Cert.ReferenceIdeal.S1x300) :
    shapeCast Cert.ReferenceIdeal.S1x300 bo hc
      = broadcastInDim Cert.ReferenceIdeal.S1x300 ![1] Cert.ReferenceIdeal.Facts₀.bcast_S300_S1x300_1 bo := by
  funext i
  obtain ⟨u, n, rfl⟩ : ∃ (u : Fin 1) (n : Fin 300), i = ix2 u n := ⟨i 0, i 1, eq_ix2 i⟩
  have hu : u = 0 := Subsingleton.elim _ _
  subst hu
  rw [shapeCast_a_1a_apply, broadcastInDim_apply ![1] _ bo (ix2 (0 : Fin 1) n) (ix1 n) (fun a => by
    match a with
    | ⟨0, _⟩ => rfl)]

/-- Stretch 3 also lays the bias out as one row. -/
theorem w6_bias_raw : W6 m ρ c (Proc.devRef .tc main_v57)
    = shapeCast Cert.ReferenceIdeal.S1x300 (W5 m ρ c (Proc.devRef .tc main_arg9)) shapeCasts_S300_S1x300 := by
  show StableHlo.after hostOps3 (W5 m ρ c) (Proc.devRef .tc main_v57) = _
  after_results_simp <;> rfl

/-- Region 3 leaves the atom rows of the output layer. -/
theorem w7_atoms : W7 m ρ c (Proc.devRef .tc main_v58)
    = Spec.atoms (m ((c : Thread nD τ).loc main_arg0))
        (Spec.aggr (Spec.step (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg7))
          (Spec.step (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg7)) (Spec.msg1 (m ((c : Thread nD τ).loc main_arg1)) (m ((c : Thread nD τ).loc main_arg6))))) (m ((c : Thread nD τ).loc main_arg2)))
        (m ((c : Thread nD τ).loc main_arg8)) (m ((c : Thread nD τ).loc main_arg9)) := by
  refine (W7_arr m ρ c 4).trans ((Region3.out_eq (V6 m ρ) c Cert.ReferenceIdeal.Facts₀.bcast_S_S100000x300
    Cert.ReferenceIdeal.Facts₀.bcast_S1x300_S100000x300_0_1 Cert.ReferenceIdeal.Facts₀.concatenates_S100000x133_S100000x300_S100000x433_d1).trans ?_)
  rw [show V6 m ρ c main_arg0 = _ from w6_arg0 m ρ c, show V6 m ρ c main_arg8 = _ from w6_arg8 m ρ c,
    show V6 m ρ c main_v56 = _ from w6_aggr_raw m ρ c, show V6 m ρ c main_v57 = _ from w6_bias_raw m ρ c,
    w5_msg, w5_arg2, w5_arg9, row_of_vec]
  rfl

/-! ## The pooling (host stretch 4) -/

/-! The buffers of the called function are typed at their values' types: reading or writing one through its typed
    reference is the identity. -/
theorem toBuf_v72 (h1 h2 h3) (x : FVec Ideal S4000x300 .f32) :
    (StableHlo.TRef.of (sig := sig) (T := ⟨S4000x300, .f32⟩) main_v72 h1 h2 h3).toBuf (Val := Elt Ideal) x = x := rfl
theorem ofBuf_v71 (h1 h2 h3) (x : FVec Ideal S4000x300 .f32) :
    (StableHlo.TRef.of (sig := sig) (T := ⟨S4000x300, .f32⟩) main_v71 h1 h2 h3).ofBuf (Val := Elt Ideal) x = x := rfl
theorem ofBuf_v67 (h1 h2 h3) (x : IVec S4000x1 1) :
    (StableHlo.TRef.of (sig := sig) (T := ⟨S4000x1, .i1⟩) main_v67 h1 h2 h3).ofBuf (Val := Elt Ideal) x = x := rfl
theorem ofBuf_cst20 (h1 h2 h3) (x : FVec Ideal S_ .f32) :
    (StableHlo.TRef.of (sig := sig) (T := ⟨S_, .f32⟩) main_cst_20 h1 h2 h3).ofBuf (Val := Elt Ideal) x = x := rfl
theorem ofBuf_toBuf_call0_v0 (h1 h2 h3) (x : FVec Ideal S_ .f32) :
    (StableHlo.TRef.of (sig := sig) (T := ⟨S_, .f32⟩) main_call0_v0 h1 h2 h3).ofBuf (Val := Elt Ideal)
      ((StableHlo.TRef.of (sig := sig) (T := ⟨S_, .f32⟩) main_call0_v0 h1 h2 h3).toBuf (Val := Elt Ideal) x) = x := rfl
theorem ofBuf_toBuf_call0_v1 (h1 h2 h3) (x : IVec S4000x300 1) :
    (StableHlo.TRef.of (sig := sig) (T := ⟨S4000x300, .i1⟩) main_call0_v1 h1 h2 h3).ofBuf (Val := Elt Ideal)
      ((StableHlo.TRef.of (sig := sig) (T := ⟨S4000x300, .i1⟩) main_call0_v1 h1 h2 h3).toBuf (Val := Elt Ideal) x) = x := rfl
theorem ofBuf_toBuf_call0_v2 (h1 h2 h3) (x : FVec Ideal S4000x300 .f32) :
    (StableHlo.TRef.of (sig := sig) (T := ⟨S4000x300, .f32⟩) main_call0_v2 h1 h2 h3).ofBuf (Val := Elt Ideal)
      ((StableHlo.TRef.of (sig := sig) (T := ⟨S4000x300, .f32⟩) main_call0_v2 h1 h2 h3).toBuf (Val := Elt Ideal) x) = x := rfl

set_option maxHeartbeats 16000000 in
/-- The last stretch pools the atom rows by molecule. -/
theorem w9_pool_raw : W9 m ρ c (Proc.devRef .tc main_v72) = Spec.pool (W7 m ρ c (Proc.devRef .tc main_v58)) (W7 m ρ c (Proc.devRef .tc main_arg5)) := by
  show StableHlo.after hostOps4_1 (StableHlo.after hostOps4 (W7 m ρ c)) (Proc.devRef .tc main_v72) = _
  after_results_simp
  rw [toBuf_v72, ofBuf_toBuf_call0_v1, ofBuf_v67, ofBuf_v71, ofBuf_toBuf_call0_v2, ofBuf_toBuf_call0_v0, ofBuf_cst20]
  rfl

/-- THE RESULT: the result buffer ends holding the network of the ten arguments. -/
theorem result : W9 m ρ c (Proc.devRef .tc main_v72)
    = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [w9_pool_raw, w7_atoms, w7_arg5]
  rfl

end Cert.KernelIdeal.KHost

end
-- ==== Proof.RefSide.lean ====
/-
  The reference program's result is the network of its arguments.

  The reference's run ends with its result buffer at the composition of its host operations applied to the argument
  arrays. That composition, read from the inside out, is the network `Spec.net`: the input layer and its rectifier, two
  rounds of aggregation and hidden update, the last aggregation, the output layer, the pooling. Nothing is computed here:
  the two terms are one term once the network's pieces are unfolded.
-/
import proofs.«149245_j78967268704276_1_alg».proof.Proof.RefRun
import proofs.«149245_j78967268704276_1_alg».proof.Proof.Spec

set_option maxRecDepth 16384

noncomputable section

namespace Cert.ReferenceIdeal.RefSide

open Cert.ReferenceIdeal Idealize.ShloMosaic Idealize.ShloMosaic.TcCoe Idealize.SL.Sem

/-- The reference's composed result term is the network of the ten argument arrays. -/
theorem result (m : (ℓ : Loc nD τ sig) → Buf (Elt Ideal) ℓ) (c : Dev nD) :
    Cert.ReferenceIdeal.ValueP.res_main_v81 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v81
  rfl

end Cert.ReferenceIdeal.RefSide

end
-- ==== Proof.lean ====
/-
  A directed message-passing encoder on the extended reals: the tiled kernel program against its plain reference.

  Both programs compute the same network (Proof/Spec.lean): the input layer `pre = f_bonds · W_i` and the first
  message `max pre 0`; two rounds in which every atom sums its six incoming bonds' messages, every bond takes its source
  atom's sum minus its reverse bond's message, and the message becomes `max (pre + new · W_h) 0`; a last aggregation
  behind the atom features through `max ([f_atoms | a_message] · W_o + b_o) 0`; the mean over every molecule's atoms.
  The reference spells every step as one host operation on whole arrays. The kernel program runs the three dense layers
  as four kernel regions over blocks of 2000 rows and keeps the gathers, sums and scatters as the same host operations.

  Why the two agree, with no condition on the inputs: an entry (r, k) of a dense layer depends on row r of its row-tiled
  operands only, so the block of rows a grid point computes is the restriction of the whole layer, and the blocks cover
  every row (Proof/Region0.lean … Region3.lean: a block's matrix product into the zero accumulator and the host's general
  dot product are the same finite sum over the contracted coordinate; a change of float format and a same-shape cast are
  the identity on the extended reals; a row of the concatenated block is the concatenation of the rows). Everything
  between the layers is the same operation applied to equal arrays. No law of arithmetic beyond that is used, so
  finiteness of the inputs is never opened.

  The kernel's run with its result named is Proof/KRun.lean; the fold through its segments read buffer by buffer is
  Proof/KHost.lean; the reference's run is Proof/RefRun.lean and its result as the network Proof/RefSide.lean. The
  idealization rewrote no operation, so the fourth claim holds trivially; the three frame claims are the runs with their
  results dropped.
-/
import proofs.«149245_j78967268704276_1_alg».proof.Defs
import proofs.«149245_j78967268704276_1_alg».proof.Proof.Gen.Kernel
import proofs.«149245_j78967268704276_1_alg».proof.Proof.Gen.Kernel.Skeleton
import proofs.«149245_j78967268704276_1_alg».proof.Proof.Gen.Kernel.Launch
import proofs.«149245_j78967268704276_1_alg».proof.Proof.Gen.Kernel.Points
import proofs.«149245_j78967268704276_1_alg».proof.Proof.Gen.Kernel.Frame
import proofs.«149245_j78967268704276_1_alg».proof.Proof.Gen.KernelIdeal
import proofs.«149245_j78967268704276_1_alg».proof.Proof.Gen.KernelIdeal.Skeleton
import proofs.«149245_j78967268704276_1_alg».proof.Proof.Gen.KernelIdeal.Launch
import proofs.«149245_j78967268704276_1_alg».proof.Proof.Gen.KernelIdeal.Points
import proofs.«149245_j78967268704276_1_alg».proof.Proof.Gen.KernelIdeal.Frame
import proofs.«149245_j78967268704276_1_alg».proof.Proof.Gen.ReferenceIdeal
import proofs.«149245_j78967268704276_1_alg».proof.Proof.Gen.Pre_finite_inputs
import proofs.«149245_j78967268704276_1_alg».proof.Proof.KRun
import proofs.«149245_j78967268704276_1_alg».proof.Proof.KHost
import proofs.«149245_j78967268704276_1_alg».proof.Proof.RefRun
import proofs.«149245_j78967268704276_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals both programs end with the network of the arguments in their result buffers: the kernel
    program by the fold through its regions and host stretches, the reference by unfolding; the arguments agree. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KHost.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.RefSide.result m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
